-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x40 .f32) (main_arg5 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x512 : Shape := ⟨2, ![2000, 512]⟩
abbrev S2000x16 : Shape := ⟨2, ![2000, 16]⟩
abbrev S3300000x16 : Shape := ⟨2, ![3300000, 16]⟩
abbrev S1x16 : Shape := ⟨2, ![1, 16]⟩
abbrev S100000x40 : Shape := ⟨2, ![100000, 40]⟩
abbrev S2000x40 : Shape := ⟨2, ![2000, 40]⟩
abbrev S3300000x40 : Shape := ⟨2, ![3300000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 83
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x40, .f32⟩
  | .hbm, ⟨65, _⟩ => ⟨S_, .i32⟩
  | .hbm, ⟨66, _⟩ => ⟨S3300000, .i32⟩
  | .hbm, ⟨67, _⟩ => ⟨S3300000, .i1⟩
  | .hbm, ⟨68, _⟩ => ⟨S_, .i32⟩
  | .hbm, ⟨69, _⟩ => ⟨S3300000, .i32⟩
  | .hbm, ⟨70, _⟩ => ⟨S3300000, .i32⟩
  | .hbm, ⟨71, _⟩ => ⟨S3300000, .i32⟩
  | .hbm, ⟨72, _⟩ => ⟨S3300000x1, .i32⟩
  | .hbm, ⟨73, _⟩ => ⟨S3300000x40, .f32⟩
  | .hbm, ⟨74, _⟩ => ⟨S3300000x1, .f32⟩
  | .hbm, ⟨75, _⟩ => ⟨S3300000x40, .f32⟩
  | .hbm, ⟨76, _⟩ => ⟨S3300000x40, .f32⟩
  | .hbm, ⟨77, _⟩ => ⟨S_, .f32⟩
  | .hbm, ⟨78, _⟩ => ⟨S100000x40, .f32⟩
  | .hbm, ⟨79, _⟩ => ⟨S3300000x1, .i32⟩
  | .hbm, ⟨80, _⟩ => ⟨S100000x40, .f32⟩
  | .hbm, ⟨81, _⟩ => ⟨S1x40, .f32⟩
  | .hbm, ⟨82, _⟩ => ⟨S100000x40, .f32⟩
  | .local _ .vmem, ⟨0, _⟩ => ⟨S2000x512, .f32⟩
  | .local _ .vmem, ⟨1, _⟩ => ⟨S2000x512, .f32⟩
  | .local _ .vmem, ⟨2, _⟩ => ⟨S512x16, .f32⟩
  | .local _ .vmem, ⟨3, _⟩ => ⟨S2000x16, .f32⟩
  | .local _ .vmem, ⟨4, _⟩ => ⟨S2000x16, .f32⟩
  | .local _ .vmem, ⟨5, _⟩ => ⟨S2000x16, .f32⟩
  | .local _ .vmem, ⟨6, _⟩ => ⟨S2000x16, .f32⟩
  | .local _ .vmem, ⟨7, _⟩ => ⟨S1x16, .f32⟩
  | .local _ .vmem, ⟨8, _⟩ => ⟨S16x40, .f32⟩
  | .local _ .vmem, ⟨9, _⟩ => ⟨S2000x40, .f32⟩
  | .local _ .vmem, ⟨10, _⟩ => ⟨S2000x40, .f32⟩
  | .local _ .vmem, ⟨11, _⟩ => ⟨S2000x40, .f32⟩
  | .local _ .vmem, ⟨12, _⟩ => ⟨S2000x40, .f32⟩
  | .local _ .vmem, ⟨13, _⟩ => ⟨S1x40, .f32⟩
  | .local _ .vmem, ⟨14, _⟩ => ⟨S2000x40, .f32⟩
  | .local _ .vmem, ⟨15, _⟩ => ⟨S2000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S2000x16_S2000x16 : S2000x16.ShapeCasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S16x40_S16x40_0_0 : ∀ a, (![0, 0] : Fin 2 → Nat) a + S16x40.size a ≤ S16x40.size a
  h_S16x40 : 0 < S16x40.numel
  inb_S2000x40_S2000x40_0_0 : ∀ a, (![0, 0] : Fin 2 → Nat) a + S2000x40.size a ≤ S2000x40.size a
  h_S2000x40 : 0 < S2000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  shapeCasts_S40_S1x40 : S40.ShapeCasts S1x40
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x512_S512x16_S2000x16_1_0_0_1_n_n_wf : DotDims.WF S2000x512 S512x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S2000x16_S16x40_S2000x40_1_0_0_1_n_n_wf : DotDims.WF S2000x16 S16x40 S2000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x40.size a ≤ S16x40.size a
  hwx1_2 : ∀ i : grid1.Coords, EltTy.bits .f32 = 32 ∨ (Rect.block (s := S16x40) S16x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x40.size a ≤ S100000x40.size a
  hwx1_3 : ∀ i : grid1.Coords, EltTy.bits .f32 = 32 ∨ (Rect.block (s := S100000x40) S2000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x40.size a ≤ S100000x40.size a
  hwx2_0 : ∀ i : grid2.Coords, EltTy.bits .f32 = 32 ∨ (Rect.block (s := S100000x40) S2000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x40.size a ≤ S100000x40.size a
  hwx2_2 : ∀ i : grid2.Coords, EltTy.bits .f32 = 32 ∨ (Rect.block (s := S100000x40) S2000x40.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S2000x16_S16x40_S2000x40_1_0_0_1_n_n : DotDims S2000x16 S16x40 S2000x40 where
  lhsContracting := [1]
  rhsContracting := [0]
  lhsNonContracting := [0]
  rhsNonContracting := [1]
  lhsBatch := []
  rhsBatch := []
  wf := dot_S2000x16_S16x40_S2000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S2000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S2000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S2000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 144
  | .vmem => 0
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S16x40, .f32⟩
  | 5 => ⟨S40, .f32⟩
  | 6 => ⟨S100000, .i32⟩
  | 7 => ⟨S1x3200000, .i32⟩
  | 8 => ⟨S3200000, .i32⟩
  | 9 => ⟨S3300000, .i32⟩
  | 10 => ⟨S1x3200000, .i32⟩
  | 11 => ⟨S3200000, .i32⟩
  | 12 => ⟨S3300000, .i32⟩
  | 13 => ⟨S_, .f32⟩
  | 14 => ⟨S3300000, .f32⟩
  | 15 => ⟨S_, .f32⟩
  | 16 => ⟨S100000, .f32⟩
  | 17 => ⟨S3300000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S3300000, .i32⟩
  | 29 => ⟨S3300000, .i1⟩
  | 30 => ⟨S_, .i32⟩
  | 31 => ⟨S3300000, .i32⟩
  | 32 => ⟨S3300000, .i32⟩
  | 33 => ⟨S3300000, .i32⟩
  | 34 => ⟨S3300000x1, .i32⟩
  | 35 => ⟨S3300000, .f32⟩
  | 36 => ⟨S_, .i32⟩
  | 37 => ⟨S3300000, .i32⟩
  | 38 => ⟨S3300000, .i1⟩
  | 39 => ⟨S_, .i32⟩
  | 40 => ⟨S3300000, .i32⟩
  | 41 => ⟨S3300000, .i32⟩
  | 42 => ⟨S3300000, .i32⟩
  | 43 => ⟨S3300000x1, .i32⟩
  | 44 => ⟨S3300000, .f32⟩
  | 45 => ⟨S3300000, .f32⟩
  | 46 => ⟨S100000x16, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000, .i32⟩
  | 70 => ⟨S1x3200000, .i32⟩
  | 71 => ⟨S3200000, .i32⟩
  | 72 => ⟨S3300000, .i32⟩
  | 73 => ⟨S1x3200000, .i32⟩
  | 74 => ⟨S3200000, .i32⟩
  | 75 => ⟨S3300000, .i32⟩
  | 76 => ⟨S_, .f32⟩
  | 77 => ⟨S3300000, .f32⟩
  | 78 => ⟨S_, .f32⟩
  | 79 => ⟨S100000, .f32⟩
  | 80 => ⟨S3300000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S3300000, .i32⟩
  | 92 => ⟨S3300000, .i1⟩
  | 93 => ⟨S_, .i32⟩
  | 94 => ⟨S3300000, .i32⟩
  | 95 => ⟨S3300000, .i32⟩
  | 96 => ⟨S3300000, .i32⟩
  | 97 => ⟨S3300000x1, .i32⟩
  | 98 => ⟨S3300000, .f32⟩
  | 99 => ⟨S_, .i32⟩
  | 100 => ⟨S3300000, .i32⟩
  | 101 => ⟨S3300000, .i1⟩
  | 102 => ⟨S_, .i32⟩
  | 103 => ⟨S3300000, .i32⟩
  | 104 => ⟨S3300000, .i32⟩
  | 105 => ⟨S3300000, .i32⟩
  | 106 => ⟨S3300000x1, .i32⟩
  | 107 => ⟨S3300000, .f32⟩
  | 108 => ⟨S3300000, .f32⟩
  | 109 => ⟨S100000x40, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x40, .f32⟩
  | 119 => ⟨S3300000x1, .f32⟩
  | 120 => ⟨S3300000x40, .f32⟩
  | 121 => ⟨S3300000x40, .f32⟩
  | 122 => ⟨S_, .f32⟩
  | 123 => ⟨S100000x40, .f32⟩
  | 124 => ⟨S3300000x1, .i32⟩
  | 125 => ⟨S100000x40, .f32⟩
  | 126 => ⟨S1x40, .f32⟩
  | 127 => ⟨S100000x40, .f32⟩
  | _ => ⟨S100000x512, .f32⟩

abbrev hbmTy0_1 (i : Nat) : BufTy := match i % 128 with
  | 0 => ⟨S100000x40, .f32⟩
  | 1 => ⟨S_, .f32⟩
  | 2 => ⟨S100000, .f32⟩
  | 3 => ⟨S_, .f32⟩
  | 4 => ⟨S100000, .f32⟩
  | 5 => ⟨S100000, .f32⟩
  | 6 => ⟨S100000x1, .f32⟩
  | 7 => ⟨S100000x40, .f32⟩
  | 8 => ⟨S100000x40, .f32⟩
  | 9 => ⟨S100000x40, .f32⟩
  | 10 => ⟨S_, .f32⟩
  | 11 => ⟨S100000, .f32⟩
  | 12 => ⟨S100000x1, .f32⟩
  | 13 => ⟨S100000x1, .f32⟩
  | 14 => ⟨S100000x40, .f32⟩
  | 15 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call3_cst : Ref sig .tc := ⟨.hbm, 129, rfl⟩
abbrev main_call3_v0 : Ref sig .tc := ⟨.hbm, 130, rfl⟩
abbrev main_call3_cst_0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_cst_1 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_v95 : Ref sig .tc := ⟨.hbm, 143, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.RefStretches.lean ====
/-
  The reference's run, read in stretches.

  The reference is one straight line of 138 array operations.  Every weakly fair execution of it ends with each buffer at
  the line's fold from the launch contents; what is wanted is that fold at the result buffer as a function of the six
  arguments.  The line is cut before and after each function the front end inlined (the two `where`s, the rectifier, the
  logarithm of the soft-max) and at the values several later operations share:

    operations   1 – 18 | 19 – 21 | 22 – 40     degrees; the first `where`; the edge weights
                 41 – 57 | 58 – 63               the first feature transform and its aggregate; bias b1 and rectifier
                 64 – 81 | 82 – 84 | 85 – 104    the second copies likewise, and the second feature transform
                105 – 120                        its aggregate
                121 – 123 | … | 135 – 138        bias b2; row maxima; shifted rows; sums of exponentials; the result

  A stretch only ever reads the few buffers named at the cuts (and arguments, which no operation writes), so each
  reading is short; composed, the result buffer ends at the last stage `val_main_v95` of the six arguments.
-/
import proofs.«138297_j584115552600_1_alg».proof.Proof.RefRead
import Idealize.ShloMosaic.Lib.StableHlo.Run

set_option maxRecDepth 16384

noncomputable section

namespace Cert.ReferenceIdeal.Stretches

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-- The contents after two lines run one after the other are the second line's from the first line's. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

variable (m : (ℓ : Loc nD τ sig) → Buf (Elt Ideal) ℓ) (c : Dev nD)

/-- Core `c`'s buffer contents after the first `k` operations of the line. -/
def upto (k : Nat) : Valuation τ sig (Elt Ideal) := after ((ops (F := Ideal)).take k) (launchContents m c)

/-- From one cut to a later one: the operations between them, from the earlier cut's contents. -/
theorem upto_step (k₁ k₂ : Nat) (h : k₁ ≤ k₂) :
    upto m c k₂ = after (((ops (F := Ideal)).take k₂).drop k₁) (upto m c k₁) := by
  have e : ((ops (F := Ideal)).take k₂).take k₁ = (ops (F := Ideal)).take k₁ := by
    rw [List.take_take]; congr 1; omega
  unfold upto
  rw [← after_append, ← e, List.take_append_drop]

/-- The whole line: its last four operations, from the contents after the first 134. -/
theorem whole : after (ops (F := Ideal)) (launchContents m c)
    = after ((ops (F := Ideal)).drop 134) (upto m c 134) := by
  unfold upto
  rw [← after_append, List.take_append_drop]

/-! ## No operation writes an argument -/

theorem unwritten0 : ∀ op ∈ (ops (F := Ideal)), Proc.devRef (τ := τ) .tc main_arg0 ∉ op.writes :=
  List.forall_iff_forall_mem.mp (by
    simp only [ops, List.Forall, nullary_writes, unary_writes, binary_writes, ternary_writes, quaternary_writes,
      reshape_writes, binaryIndexed_writes, Finset.mem_singleton]
    repeat' apply And.intro
    all_goals exact devRef_ne_of_ne (by decide))

/-- Argument 0 after any prefix of the line is as launched. -/
theorem upto_arg0 (k : Nat) : upto m c k (Proc.devRef .tc main_arg0) = m ((c.tc : Thread nD τ).loc main_arg0) :=
  after_of_forall_not_mem _ _ fun op h => unwritten0 op (List.mem_of_mem_take h)

/-- Argument 0 after the whole line is as launched. -/
theorem kept0 : after (ops (F := Ideal)) (launchContents m c) (Proc.devRef .tc main_arg0) = m ((c.tc : Thread nD τ).loc main_arg0) :=
  after_of_forall_not_mem _ _ unwritten0

theorem unwritten1 : ∀ op ∈ (ops (F := Ideal)), Proc.devRef (τ := τ) .tc main_arg1 ∉ op.writes :=
  List.forall_iff_forall_mem.mp (by
    simp only [ops, List.Forall, nullary_writes, unary_writes, binary_writes, ternary_writes, quaternary_writes,
      reshape_writes, binaryIndexed_writes, Finset.mem_singleton]
    repeat' apply And.intro
    all_goals exact devRef_ne_of_ne (by decide))

/-- Argument 1 after any prefix of the line is as launched. -/
theorem upto_arg1 (k : Nat) : upto m c k (Proc.devRef .tc main_arg1) = m ((c.tc : Thread nD τ).loc main_arg1) :=
  after_of_forall_not_mem _ _ fun op h => unwritten1 op (List.mem_of_mem_take h)

/-- Argument 1 after the whole line is as launched. -/
theorem kept1 : after (ops (F := Ideal)) (launchContents m c) (Proc.devRef .tc main_arg1) = m ((c.tc : Thread nD τ).loc main_arg1) :=
  after_of_forall_not_mem _ _ unwritten1

theorem unwritten2 : ∀ op ∈ (ops (F := Ideal)), Proc.devRef (τ := τ) .tc main_arg2 ∉ op.writes :=
  List.forall_iff_forall_mem.mp (by
    simp only [ops, List.Forall, nullary_writes, unary_writes, binary_writes, ternary_writes, quaternary_writes,
      reshape_writes, binaryIndexed_writes, Finset.mem_singleton]
    repeat' apply And.intro
    all_goals exact devRef_ne_of_ne (by decide))

/-- Argument 2 after any prefix of the line is as launched. -/
theorem upto_arg2 (k : Nat) : upto m c k (Proc.devRef .tc main_arg2) = m ((c.tc : Thread nD τ).loc main_arg2) :=
  after_of_forall_not_mem _ _ fun op h => unwritten2 op (List.mem_of_mem_take h)

/-- Argument 2 after the whole line is as launched. -/
theorem kept2 : after (ops (F := Ideal)) (launchContents m c) (Proc.devRef .tc main_arg2) = m ((c.tc : Thread nD τ).loc main_arg2) :=
  after_of_forall_not_mem _ _ unwritten2

theorem unwritten3 : ∀ op ∈ (ops (F := Ideal)), Proc.devRef (τ := τ) .tc main_arg3 ∉ op.writes :=
  List.forall_iff_forall_mem.mp (by
    simp only [ops, List.Forall, nullary_writes, unary_writes, binary_writes, ternary_writes, quaternary_writes,
      reshape_writes, binaryIndexed_writes, Finset.mem_singleton]
    repeat' apply And.intro
    all_goals exact devRef_ne_of_ne (by decide))

/-- Argument 3 after any prefix of the line is as launched. -/
theorem upto_arg3 (k : Nat) : upto m c k (Proc.devRef .tc main_arg3) = m ((c.tc : Thread nD τ).loc main_arg3) :=
  after_of_forall_not_mem _ _ fun op h => unwritten3 op (List.mem_of_mem_take h)

/-- Argument 3 after the whole line is as launched. -/
theorem kept3 : after (ops (F := Ideal)) (launchContents m c) (Proc.devRef .tc main_arg3) = m ((c.tc : Thread nD τ).loc main_arg3) :=
  after_of_forall_not_mem _ _ unwritten3

theorem unwritten4 : ∀ op ∈ (ops (F := Ideal)), Proc.devRef (τ := τ) .tc main_arg4 ∉ op.writes :=
  List.forall_iff_forall_mem.mp (by
    simp only [ops, List.Forall, nullary_writes, unary_writes, binary_writes, ternary_writes, quaternary_writes,
      reshape_writes, binaryIndexed_writes, Finset.mem_singleton]
    repeat' apply And.intro
    all_goals exact devRef_ne_of_ne (by decide))

/-- Argument 4 after any prefix of the line is as launched. -/
theorem upto_arg4 (k : Nat) : upto m c k (Proc.devRef .tc main_arg4) = m ((c.tc : Thread nD τ).loc main_arg4) :=
  after_of_forall_not_mem _ _ fun op h => unwritten4 op (List.mem_of_mem_take h)

/-- Argument 4 after the whole line is as launched. -/
theorem kept4 : after (ops (F := Ideal)) (launchContents m c) (Proc.devRef .tc main_arg4) = m ((c.tc : Thread nD τ).loc main_arg4) :=
  after_of_forall_not_mem _ _ unwritten4

theorem unwritten5 : ∀ op ∈ (ops (F := Ideal)), Proc.devRef (τ := τ) .tc main_arg5 ∉ op.writes :=
  List.forall_iff_forall_mem.mp (by
    simp only [ops, List.Forall, nullary_writes, unary_writes, binary_writes, ternary_writes, quaternary_writes,
      reshape_writes, binaryIndexed_writes, Finset.mem_singleton]
    repeat' apply And.intro
    all_goals exact devRef_ne_of_ne (by decide))

/-- Argument 5 after any prefix of the line is as launched. -/
theorem upto_arg5 (k : Nat) : upto m c k (Proc.devRef .tc main_arg5) = m ((c.tc : Thread nD τ).loc main_arg5) :=
  after_of_forall_not_mem _ _ fun op h => unwritten5 op (List.mem_of_mem_take h)

/-- Argument 5 after the whole line is as launched. -/
theorem kept5 : after (ops (F := Ideal)) (launchContents m c) (Proc.devRef .tc main_arg5) = m ((c.tc : Thread nD τ).loc main_arg5) :=
  after_of_forall_not_mem _ _ unwritten5

/-! ## The inlined calls, over any inputs

An operation of an inlined function reads and writes its buffers through typed references; each carries the buffer's own
type, so moving contents to the buffer's type and back changes nothing. Stated once per call over arbitrary inputs, where
the comparison is immediate, and then instantiated. -/

/-- The first `where`: keep `r` where `p` holds, else the broadcast scalar. -/
theorem where1_closed (p : (⟨S100000, .i1⟩ : BufTy).Contents (Elt Ideal)) (r : (⟨S100000, .f32⟩ : BufTy).Contents (Elt Ideal)) (z : (⟨S_, .f32⟩ : BufTy).Contents (Elt Ideal)) :
    ((TRef.of (sig := sig) (T := ⟨S100000, .f32⟩) main_v14).toBuf (Val := Elt Ideal) (select ((TRef.of (sig := sig) (T := ⟨S100000, .i1⟩) main_v12).ofBuf (Val := Elt Ideal) p) ((TRef.of (sig := sig) (T := ⟨S100000, .f32⟩) main_v13).ofBuf (Val := Elt Ideal) r)
      ((TRef.of (sig := sig) (T := ⟨S100000, .f32⟩) main_call0_v1).ofBuf (Val := Elt Ideal) ((TRef.of (sig := sig) (T := ⟨S100000, .f32⟩) main_call0_v1).toBuf (Val := Elt Ideal) (broadcastInDim S100000 ![] bcast_S_S100000 ((TRef.of (sig := sig) (T := ⟨S_, .f32⟩) main_call0_v0).ofBuf (Val := Elt Ideal) ((TRef.of (sig := sig) (T := ⟨S_, .f32⟩) main_call0_v0).toBuf (Val := Elt Ideal) (id ((TRef.of (sig := sig) (T := ⟨S_, .f32⟩) main_cst_2).ofBuf (Val := Elt Ideal) z)))))))))
      = select p r (broadcastInDim S100000 ![] bcast_S_S100000 (id z)) := rfl

/-- The second `where`, on the second copy's buffers. -/
theorem where2_closed (p : (⟨S100000, .i1⟩ : BufTy).Contents (Elt Ideal)) (r : (⟨S100000, .f32⟩ : BufTy).Contents (Elt Ideal)) (z : (⟨S_, .f32⟩ : BufTy).Contents (Elt Ideal)) :
    ((TRef.of (sig := sig) (T := ⟨S100000, .f32⟩) main_v62).toBuf (Val := Elt Ideal) (select ((TRef.of (sig := sig) (T := ⟨S100000, .i1⟩) main_v60).ofBuf (Val := Elt Ideal) p) ((TRef.of (sig := sig) (T := ⟨S100000, .f32⟩) main_v61).ofBuf (Val := Elt Ideal) r)
      ((TRef.of (sig := sig) (T := ⟨S100000, .f32⟩) main_call2_v1).ofBuf (Val := Elt Ideal) ((TRef.of (sig := sig) (T := ⟨S100000, .f32⟩) main_call2_v1).toBuf (Val := Elt Ideal) (broadcastInDim S100000 ![] bcast_S_S100000 ((TRef.of (sig := sig) (T := ⟨S_, .f32⟩) main_call2_v0).ofBuf (Val := Elt Ideal) ((TRef.of (sig := sig) (T := ⟨S_, .f32⟩) main_call2_v0).toBuf (Val := Elt Ideal) (id ((TRef.of (sig := sig) (T := ⟨S_, .f32⟩) main_cst_12).ofBuf (Val := Elt Ideal) z)))))))))
      = select p r (broadcastInDim S100000 ![] bcast_S_S100000 (id z)) := rfl

/-- The rectifier's three operations after the bias add, over any first aggregate `A` and bias `b`: the inlined call's
    typed references carry the buffer's own type, so their transports are identities. -/
theorem relu_closed (A : (⟨S100000x16, .f32⟩ : BufTy).Contents (Elt Ideal)) (b : (⟨S16, .f32⟩ : BufTy).Contents (Elt Ideal)) :
    (TRef.of (sig := sig) (T := ⟨S100000x16, .f32⟩) main_v47).toBuf (Val := Elt Ideal)
      (maximumf (F := Ideal) (φ := .f32)
        ((TRef.of (sig := sig) (T := ⟨S100000x16, .f32⟩) main_v46).ofBuf (Val := Elt Ideal)
          (addf (F := Ideal) (φ := .f32) A
            (broadcastInDim S100000x16 ![0, 1] bcast_S1x16_S100000x16_0_1 (broadcastInDim S1x16 ![1] bcast_S16_S1x16_1 b))))
        ((TRef.of (sig := sig) (T := ⟨S100000x16, .f32⟩) main_call1_v0).ofBuf (Val := Elt Ideal)
          ((TRef.of (sig := sig) (T := ⟨S100000x16, .f32⟩) main_call1_v0).toBuf (Val := Elt Ideal)
            (broadcastInDim S100000x16 ![] bcast_S_S100000x16
              ((TRef.of (sig := sig) (T := ⟨S_, .f32⟩) main_call1_cst).ofBuf (Val := Elt Ideal)
                ((TRef.of (sig := sig) (T := ⟨S_, .f32⟩) main_call1_cst).toBuf (Val := Elt Ideal)
                  (constant (F := Ideal) S_ .f32 0x00000000#32)))))))
      = maximumf (F := Ideal) (φ := .f32)
          (addf (F := Ideal) (φ := .f32) A
            (broadcastInDim S100000x16 ![0, 1] bcast_S1x16_S100000x16_0_1 (broadcastInDim S1x16 ![1] bcast_S16_S1x16_1 b)))
          (broadcastInDim S100000x16 ![] bcast_S_S100000x16 (constant (F := Ideal) S_ .f32 0x00000000#32)) := rfl

/-! The transports at the buffers of the row maximum are identities: one line per buffer and direction. -/
set_option maxRecDepth 400000 in
section
theorem to_call3_v2 (h1 h2 h3) (v : (⟨S100000, .f32⟩ : BufTy).Contents (Elt Ideal)) :
    (TRef.of (sig := sig) (T := ⟨S100000, .f32⟩) main_call3_v2 h1 h2 h3).toBuf (Val := Elt Ideal) v = v := rfl
theorem of_call3_v2 (h1 h2 h3) (v : (⟨S100000, .f32⟩ : BufTy).Contents (Elt Ideal)) :
    (TRef.of (sig := sig) (T := ⟨S100000, .f32⟩) main_call3_v2 h1 h2 h3).ofBuf (Val := Elt Ideal) v = v := rfl
theorem to_call3_v1 (h1 h2 h3) (v : (⟨S100000, .f32⟩ : BufTy).Contents (Elt Ideal)) :
    (TRef.of (sig := sig) (T := ⟨S100000, .f32⟩) main_call3_v1 h1 h2 h3).toBuf (Val := Elt Ideal) v = v := rfl
theorem of_call3_v1 (h1 h2 h3) (v : (⟨S100000, .f32⟩ : BufTy).Contents (Elt Ideal)) :
    (TRef.of (sig := sig) (T := ⟨S100000, .f32⟩) main_call3_v1 h1 h2 h3).ofBuf (Val := Elt Ideal) v = v := rfl
theorem to_call3_cst_0 (h1 h2 h3) (v : (⟨S_, .f32⟩ : BufTy).Contents (Elt Ideal)) :
    (TRef.of (sig := sig) (T := ⟨S_, .f32⟩) main_call3_cst_0 h1 h2 h3).toBuf (Val := Elt Ideal) v = v := rfl
theorem of_call3_cst_0 (h1 h2 h3) (v : (⟨S_, .f32⟩ : BufTy).Contents (Elt Ideal)) :
    (TRef.of (sig := sig) (T := ⟨S_, .f32⟩) main_call3_cst_0 h1 h2 h3).ofBuf (Val := Elt Ideal) v = v := rfl
theorem to_call3_v0 (h1 h2 h3) (v : (⟨S100000, .f32⟩ : BufTy).Contents (Elt Ideal)) :
    (TRef.of (sig := sig) (T := ⟨S100000, .f32⟩) main_call3_v0 h1 h2 h3).toBuf (Val := Elt Ideal) v = v := rfl
theorem of_call3_v0 (h1 h2 h3) (v : (⟨S100000, .f32⟩ : BufTy).Contents (Elt Ideal)) :
    (TRef.of (sig := sig) (T := ⟨S100000, .f32⟩) main_call3_v0 h1 h2 h3).ofBuf (Val := Elt Ideal) v = v := rfl
theorem to_v94 (h1 h2 h3) (v : (⟨S100000x40, .f32⟩ : BufTy).Contents (Elt Ideal)) :
    (TRef.of (sig := sig) (T := ⟨S100000x40, .f32⟩) main_v94 h1 h2 h3).toBuf (Val := Elt Ideal) v = v := rfl
theorem of_v94 (h1 h2 h3) (v : (⟨S100000x40, .f32⟩ : BufTy).Contents (Elt Ideal)) :
    (TRef.of (sig := sig) (T := ⟨S100000x40, .f32⟩) main_v94 h1 h2 h3).ofBuf (Val := Elt Ideal) v = v := rfl
theorem to_call3_cst (h1 h2 h3) (v : (⟨S_, .f32⟩ : BufTy).Contents (Elt Ideal)) :
    (TRef.of (sig := sig) (T := ⟨S_, .f32⟩) main_call3_cst h1 h2 h3).toBuf (Val := Elt Ideal) v = v := rfl
theorem of_call3_cst (h1 h2 h3) (v : (⟨S_, .f32⟩ : BufTy).Contents (Elt Ideal)) :
    (TRef.of (sig := sig) (T := ⟨S_, .f32⟩) main_call3_cst h1 h2 h3).ofBuf (Val := Elt Ideal) v = v := rfl
end

set_option maxRecDepth 400000 in
/-- The row maximum: the reduction from −∞, then the maximum with a broadcast −∞. -/
theorem rowmax_closed (Y : (⟨S100000x40, .f32⟩ : BufTy).Contents (Elt Ideal)) :
    ((TRef.of (sig := sig) (T := ⟨S100000, .f32⟩) main_call3_v2).toBuf (Val := Elt Ideal) (maximumf (F := Ideal) (φ := .f32)
      ((TRef.of (sig := sig) (T := ⟨S100000, .f32⟩) main_call3_v1).ofBuf (Val := Elt Ideal) ((TRef.of (sig := sig) (T := ⟨S100000, .f32⟩) main_call3_v1).toBuf (Val := Elt Ideal) (broadcastInDim S100000 ![] bcast_S_S100000 ((TRef.of (sig := sig) (T := ⟨S_, .f32⟩) main_call3_cst_0).ofBuf (Val := Elt Ideal) ((TRef.of (sig := sig) (T := ⟨S_, .f32⟩) main_call3_cst_0).toBuf (Val := Elt Ideal) (constant (F := Ideal) S_ .f32 0xFF800000#32))))))
      ((TRef.of (sig := sig) (T := ⟨S100000, .f32⟩) main_call3_v0).ofBuf (Val := Elt Ideal) ((TRef.of (sig := sig) (T := ⟨S100000, .f32⟩) main_call3_v0).toBuf (Val := Elt Ideal) (Host.reduce (FloatOps.maximumf (F := Ideal) (φ := .f32)) ((TRef.of (sig := sig) (T := ⟨S100000x40, .f32⟩) main_v94).ofBuf (Val := Elt Ideal) Y) ((TRef.of (sig := sig) (T := ⟨S_, .f32⟩) main_call3_cst).ofBuf (Val := Elt Ideal) ((TRef.of (sig := sig) (T := ⟨S_, .f32⟩) main_call3_cst).toBuf (Val := Elt Ideal) (constant (F := Ideal) S_ .f32 0xFF800000#32))) reducesTo_S100000x40_S100000_d1 h_S_)))))
      = maximumf (F := Ideal) (φ := .f32) (broadcastInDim S100000 ![] bcast_S_S100000 (constant (F := Ideal) S_ .f32 0xFF800000#32)) (Host.reduce (FloatOps.maximumf (F := Ideal) (φ := .f32)) Y (constant (F := Ideal) S_ .f32 0xFF800000#32) reducesTo_S100000x40_S100000_d1 h_S_) := by
  rw [to_call3_v2, of_call3_v1, to_call3_v1, of_call3_cst_0, to_call3_cst_0, of_call3_v0, to_call3_v0, of_v94]

set_option maxRecDepth 400000 in
/-- The shift of each row by its maximum, the maximum kept as a column and repeated along the row. -/
theorem shift_closed (Y : (⟨S100000x40, .f32⟩ : BufTy).Contents (Elt Ideal)) (M : (⟨S100000, .f32⟩ : BufTy).Contents (Elt Ideal)) :
    ((TRef.of (sig := sig) (T := ⟨S100000x40, .f32⟩) main_call3_v5).toBuf (Val := Elt Ideal) (subf (F := Ideal) (φ := .f32) ((TRef.of (sig := sig) (T := ⟨S100000x40, .f32⟩) main_v94).ofBuf (Val := Elt Ideal) Y)
      ((TRef.of (sig := sig) (T := ⟨S100000x40, .f32⟩) main_call3_v4).ofBuf (Val := Elt Ideal) ((TRef.of (sig := sig) (T := ⟨S100000x40, .f32⟩) main_call3_v4).toBuf (Val := Elt Ideal) (broadcastInDim S100000x40 ![0, 1] bcast_S100000x1_S100000x40_0_1 ((TRef.of (sig := sig) (T := ⟨S100000x1, .f32⟩) main_call3_v3).ofBuf (Val := Elt Ideal) ((TRef.of (sig := sig) (T := ⟨S100000x1, .f32⟩) main_call3_v3).toBuf (Val := Elt Ideal) (broadcastInDim S100000x1 ![0] bcast_S100000_S100000x1_0 ((TRef.of (sig := sig) (T := ⟨S100000, .f32⟩) main_call3_v2).ofBuf (Val := Elt Ideal) M)))))))))
      = subf (F := Ideal) (φ := .f32) Y (broadcastInDim S100000x40 ![0, 1] bcast_S100000x1_S100000x40_0_1 (broadcastInDim S100000x1 ![0] bcast_S100000_S100000x1_0 M)) := rfl

set_option maxRecDepth 400000 in
/-- The sum of the exponentials along each row, from zero. -/
theorem sum_closed (Z : (⟨S100000x40, .f32⟩ : BufTy).Contents (Elt Ideal)) :
    ((TRef.of (sig := sig) (T := ⟨S100000, .f32⟩) main_call3_v7).toBuf (Val := Elt Ideal) (Host.reduceAdd (F := Ideal) (φ := .f32) ((TRef.of (sig := sig) (T := ⟨S100000x40, .f32⟩) main_call3_v6).ofBuf (Val := Elt Ideal) ((TRef.of (sig := sig) (T := ⟨S100000x40, .f32⟩) main_call3_v6).toBuf (Val := Elt Ideal) (Host.exp (F := Ideal) (φ := .f32) ((TRef.of (sig := sig) (T := ⟨S100000x40, .f32⟩) main_call3_v5).ofBuf (Val := Elt Ideal) Z))))
      ((TRef.of (sig := sig) (T := ⟨S_, .f32⟩) main_call3_cst_1).ofBuf (Val := Elt Ideal) ((TRef.of (sig := sig) (T := ⟨S_, .f32⟩) main_call3_cst_1).toBuf (Val := Elt Ideal) (constant (F := Ideal) S_ .f32 0x00000000#32))) reducesTo_S100000x40_S100000_d1 h_S_))
      = Host.reduceAdd (F := Ideal) (φ := .f32) (Host.exp (F := Ideal) (φ := .f32) Z) (constant (F := Ideal) S_ .f32 0x00000000#32) reducesTo_S100000x40_S100000_d1 h_S_ := rfl

set_option maxRecDepth 400000 in
/-- The shifted rows minus the logarithm of their sums, the logarithm kept as a column and repeated along the row. -/
theorem out_closed (Z : (⟨S100000x40, .f32⟩ : BufTy).Contents (Elt Ideal)) (S : (⟨S100000, .f32⟩ : BufTy).Contents (Elt Ideal)) :
    ((TRef.of (sig := sig) (T := ⟨S100000x40, .f32⟩) main_v95).toBuf (Val := Elt Ideal) (subf (F := Ideal) (φ := .f32) ((TRef.of (sig := sig) (T := ⟨S100000x40, .f32⟩) main_call3_v5).ofBuf (Val := Elt Ideal) Z)
      ((TRef.of (sig := sig) (T := ⟨S100000x40, .f32⟩) main_call3_v10).ofBuf (Val := Elt Ideal) ((TRef.of (sig := sig) (T := ⟨S100000x40, .f32⟩) main_call3_v10).toBuf (Val := Elt Ideal) (broadcastInDim S100000x40 ![0, 1] bcast_S100000x1_S100000x40_0_1 ((TRef.of (sig := sig) (T := ⟨S100000x1, .f32⟩) main_call3_v9).ofBuf (Val := Elt Ideal) ((TRef.of (sig := sig) (T := ⟨S100000x1, .f32⟩) main_call3_v9).toBuf (Val := Elt Ideal) (Host.log (F := Ideal) (φ := .f32) ((TRef.of (sig := sig) (T := ⟨S100000x1, .f32⟩) main_call3_v8).ofBuf (Val := Elt Ideal) ((TRef.of (sig := sig) (T := ⟨S100000x1, .f32⟩) main_call3_v8).toBuf (Val := Elt Ideal) (broadcastInDim S100000x1 ![0] bcast_S100000_S100000x1_0 ((TRef.of (sig := sig) (T := ⟨S100000, .f32⟩) main_call3_v7).ofBuf (Val := Elt Ideal) S))))))))))))
      = subf (F := Ideal) (φ := .f32) Z (broadcastInDim S100000x40 ![0, 1] bcast_S100000x1_S100000x40_0_1 (Host.log (F := Ideal) (φ := .f32) (broadcastInDim S100000x1 ![0] bcast_S100000_S100000x1_0 S))) := rfl

/-! ## The stretches -/

set_option maxHeartbeats 8000000 in
/-- Operations 1 – 18 leave the positive-degree mask, -/
theorem pos_18 : upto m c 18 (Proc.devRef .tc main_v12) = val_main_v12 (F := Ideal) (m ((c.tc : Thread nD τ).loc main_arg1)) := by
  unfold upto
  simp only [ops, List.take_succ_cons, List.take_zero, List.drop_succ_cons, List.drop_zero]
  after_results
  rfl

set_option maxHeartbeats 8000000 in
/-- the reciprocal square root of the degree, -/
theorem rsq_18 : upto m c 18 (Proc.devRef .tc main_v13) = val_main_v13 (F := Ideal) (m ((c.tc : Thread nD τ).loc main_arg1)) := by
  unfold upto
  simp only [ops, List.take_succ_cons, List.take_zero, List.drop_succ_cons, List.drop_zero]
  after_results
  rfl

set_option maxHeartbeats 8000000 in
/-- and the scalar zero. -/
theorem zero_18 : upto m c 18 (Proc.devRef .tc main_cst_2) = val_main_cst_2 (F := Ideal) := by
  unfold upto
  simp only [ops, List.take_succ_cons, List.take_zero, List.drop_succ_cons, List.drop_zero]
  after_results
  rfl

set_option maxHeartbeats 8000000 in
/-- Operations 19 – 21, the inlined `where`, leave the reciprocal square root of the degree where the degree is positive, zero elsewhere. -/
theorem dinv_21 : upto m c 21 (Proc.devRef .tc main_v14) = val_main_v14 (F := Ideal) (m ((c.tc : Thread nD τ).loc main_arg1)) := by
  rw [upto_step m c 18 21 (by decide)]
  simp only [ops, List.take_succ_cons, List.take_zero, List.drop_succ_cons, List.drop_zero]
  after_results
  rw [pos_18 m c, rsq_18 m c, zero_18 m c]
  unfold val_main_v14 val_main_call0_v1 val_main_call0_v0
  exact where1_closed _ _ _

set_option maxHeartbeats 8000000 in
/-- After them the source list -/
theorem src_21 : upto m c 21 (Proc.devRef .tc main_v3) = val_main_v3 (F := Ideal) (m ((c.tc : Thread nD τ).loc main_arg1)) := by
  unfold upto
  simp only [ops, List.take_succ_cons, List.take_zero, List.drop_succ_cons, List.drop_zero]
  after_results
  rfl

set_option maxHeartbeats 8000000 in
/-- and the target list are as built. -/
theorem dst_21 : upto m c 21 (Proc.devRef .tc main_v6) = val_main_v6 (F := Ideal) (m ((c.tc : Thread nD τ).loc main_arg1)) := by
  unfold upto
  simp only [ops, List.take_succ_cons, List.take_zero, List.drop_succ_cons, List.drop_zero]
  after_results
  rfl

set_option maxHeartbeats 8000000 in
/-- Operations 22 – 40 leave the edge weights. -/
theorem wgt_40 : upto m c 40 (Proc.devRef .tc main_v29) = val_main_v29 (F := Ideal) (m ((c.tc : Thread nD τ).loc main_arg1)) := by
  rw [upto_step m c 21 40 (by decide)]
  simp only [ops, List.take_succ_cons, List.take_zero, List.drop_succ_cons, List.drop_zero]
  after_results
  rw [dinv_21 m c, src_21 m c, dst_21 m c]
  rfl

set_option maxHeartbeats 8000000 in
/-- After them the source list -/
theorem src_40 : upto m c 40 (Proc.devRef .tc main_v3) = val_main_v3 (F := Ideal) (m ((c.tc : Thread nD τ).loc main_arg1)) := by
  unfold upto
  simp only [ops, List.take_succ_cons, List.take_zero, List.drop_succ_cons, List.drop_zero]
  after_results
  rfl

set_option maxHeartbeats 8000000 in
/-- and the target list are as built. -/
theorem dst_40 : upto m c 40 (Proc.devRef .tc main_v6) = val_main_v6 (F := Ideal) (m ((c.tc : Thread nD τ).loc main_arg1)) := by
  unfold upto
  simp only [ops, List.take_succ_cons, List.take_zero, List.drop_succ_cons, List.drop_zero]
  after_results
  rfl

set_option maxHeartbeats 8000000 in
/-- Operations 41 – 57 leave the first aggregate. -/
theorem agg_57 : upto m c 57 (Proc.devRef .tc main_v43) = val_main_v43 (F := Ideal) (m ((c.tc : Thread nD τ).loc main_arg0)) (m ((c.tc : Thread nD τ).loc main_arg1)) (m ((c.tc : Thread nD τ).loc main_arg2)) := by
  rw [upto_step m c 40 57 (by decide)]
  simp only [ops, List.take_succ_cons, List.take_zero, List.drop_succ_cons, List.drop_zero]
  after_results_simp
  rw [src_40 m c, dst_40 m c, wgt_40 m c, upto_arg0 m c 40, upto_arg2 m c 40]
  rfl

set_option maxHeartbeats 8000000 in
/-- Operations 58 – 63 leave the rectified first aggregate plus bias. -/
theorem relu_63 : upto m c 63 (Proc.devRef .tc main_v47) = val_main_v47 (F := Ideal) (m ((c.tc : Thread nD τ).loc main_arg0)) (m ((c.tc : Thread nD τ).loc main_arg1)) (m ((c.tc : Thread nD τ).loc main_arg2)) (m ((c.tc : Thread nD τ).loc main_arg3)) := by
  rw [upto_step m c 57 63 (by decide)]
  simp only [ops, List.take_succ_cons, List.take_zero, List.drop_succ_cons, List.drop_zero]
  after_results_simp
  rw [agg_57 m c, upto_arg3 m c 57]
  unfold val_main_v47 val_main_v46 val_main_v45 val_main_v44 val_main_call1_v0 val_main_call1_cst
  exact relu_closed _ _

set_option maxHeartbeats 8000000 in
/-- Operations 64 – 81 leave the second copy of the positive-degree mask, -/
theorem pos_81 : upto m c 81 (Proc.devRef .tc main_v60) = val_main_v60 (F := Ideal) (m ((c.tc : Thread nD τ).loc main_arg1)) := by
  rw [upto_step m c 63 81 (by decide)]
  simp only [ops, List.take_succ_cons, List.take_zero, List.drop_succ_cons, List.drop_zero]
  after_results
  rw [upto_arg1 m c 63]
  rfl

set_option maxHeartbeats 8000000 in
/-- of the reciprocal square root of the degree, -/
theorem rsq_81 : upto m c 81 (Proc.devRef .tc main_v61) = val_main_v61 (F := Ideal) (m ((c.tc : Thread nD τ).loc main_arg1)) := by
  rw [upto_step m c 63 81 (by decide)]
  simp only [ops, List.take_succ_cons, List.take_zero, List.drop_succ_cons, List.drop_zero]
  after_results
  rw [upto_arg1 m c 63]
  rfl

set_option maxHeartbeats 8000000 in
/-- and of the scalar zero. -/
theorem zero_81 : upto m c 81 (Proc.devRef .tc main_cst_12) = val_main_cst_12 (F := Ideal) := by
  rw [upto_step m c 63 81 (by decide)]
  simp only [ops, List.take_succ_cons, List.take_zero, List.drop_succ_cons, List.drop_zero]
  after_results
  rfl

set_option maxHeartbeats 8000000 in
/-- Operations 82 – 84, the second inlined `where`. -/
theorem dinv_84 : upto m c 84 (Proc.devRef .tc main_v62) = val_main_v62 (F := Ideal) (m ((c.tc : Thread nD τ).loc main_arg1)) := by
  rw [upto_step m c 81 84 (by decide)]
  simp only [ops, List.take_succ_cons, List.take_zero, List.drop_succ_cons, List.drop_zero]
  after_results
  rw [pos_81 m c, rsq_81 m c, zero_81 m c]
  unfold val_main_v62 val_main_call2_v1 val_main_call2_v0
  exact where2_closed _ _ _

set_option maxHeartbeats 8000000 in
/-- After them the second copy of the source list -/
theorem src_84 : upto m c 84 (Proc.devRef .tc main_v51) = val_main_v51 (F := Ideal) (m ((c.tc : Thread nD τ).loc main_arg1)) := by
  rw [upto_step m c 63 84 (by decide)]
  simp only [ops, List.take_succ_cons, List.take_zero, List.drop_succ_cons, List.drop_zero]
  after_results
  rw [upto_arg1 m c 63]
  rfl

set_option maxHeartbeats 8000000 in
/-- and of the target list are as built. -/
theorem dst_84 : upto m c 84 (Proc.devRef .tc main_v54) = val_main_v54 (F := Ideal) (m ((c.tc : Thread nD τ).loc main_arg1)) := by
  rw [upto_step m c 63 84 (by decide)]
  simp only [ops, List.take_succ_cons, List.take_zero, List.drop_succ_cons, List.drop_zero]
  after_results
  rw [upto_arg1 m c 63]
  rfl

set_option maxHeartbeats 8000000 in
/-- Operations 85 – 104 leave the second copy of the edge weights, -/
theorem wgt_104 : upto m c 104 (Proc.devRef .tc main_v77) = val_main_v77 (F := Ideal) (m ((c.tc : Thread nD τ).loc main_arg1)) := by
  rw [upto_step m c 84 104 (by decide)]
  simp only [ops, List.take_succ_cons, List.take_zero, List.drop_succ_cons, List.drop_zero]
  after_results
  rw [dinv_84 m c, src_84 m c, dst_84 m c]
  rfl

set_option maxHeartbeats 8000000 in
/-- the lists unchanged, -/
theorem src_104 : upto m c 104 (Proc.devRef .tc main_v51) = val_main_v51 (F := Ideal) (m ((c.tc : Thread nD τ).loc main_arg1)) := by
  rw [upto_step m c 63 104 (by decide)]
  simp only [ops, List.take_succ_cons, List.take_zero, List.drop_succ_cons, List.drop_zero]
  after_results
  rw [upto_arg1 m c 63]
  rfl

set_option maxHeartbeats 8000000 in
/-- (the target list) -/
theorem dst_104 : upto m c 104 (Proc.devRef .tc main_v54) = val_main_v54 (F := Ideal) (m ((c.tc : Thread nD τ).loc main_arg1)) := by
  rw [upto_step m c 63 104 (by decide)]
  simp only [ops, List.take_succ_cons, List.take_zero, List.drop_succ_cons, List.drop_zero]
  after_results
  rw [upto_arg1 m c 63]
  rfl

set_option maxHeartbeats 8000000 in
/-- and the second feature transform. -/
theorem dense_104 : upto m c 104 (Proc.devRef .tc main_v78) = val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [upto_step m c 63 104 (by decide)]
  simp only [ops, List.take_succ_cons, List.take_zero, List.drop_succ_cons, List.drop_zero]
  after_results_simp
  rw [relu_63 m c, upto_arg4 m c 63]
  rfl

set_option maxHeartbeats 8000000 in
/-- Operations 105 – 120 leave the second aggregate. -/
theorem agg_120 : upto m c 120 (Proc.devRef .tc main_v91) = val_main_v91 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [upto_step m c 104 120 (by decide)]
  simp only [ops, List.take_succ_cons, List.take_zero, List.drop_succ_cons, List.drop_zero]
  after_results_simp
  rw [dense_104 m c, src_104 m c, dst_104 m c, wgt_104 m c]
  rfl

set_option maxHeartbeats 8000000 in
/-- Operations 121 – 123 add the bias b2. -/
theorem logit_123 : upto m c 123 (Proc.devRef .tc main_v94) = val_main_v94 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [upto_step m c 120 123 (by decide)]
  simp only [ops, List.take_succ_cons, List.take_zero, List.drop_succ_cons, List.drop_zero]
  after_results
  rw [agg_120 m c, upto_arg5 m c 120]
  rfl

set_option maxHeartbeats 8000000 in
/-- Operations 124 – 128 leave the row maxima. -/
theorem rowmax_128 : upto m c 128 (Proc.devRef .tc main_call3_v2) = val_main_call3_v2 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [upto_step m c 123 128 (by decide)]
  simp only [ops, List.take_succ_cons, List.take_zero, List.drop_succ_cons, List.drop_zero]
  after_results
  rw [logit_123 m c]
  unfold val_main_call3_v2 val_main_call3_v1 val_main_call3_cst_0 val_main_call3_v0 val_main_call3_cst
  exact rowmax_closed _

set_option maxHeartbeats 8000000 in
/-- After them the logits are as they were. -/
theorem logit_128 : upto m c 128 (Proc.devRef .tc main_v94) = val_main_v94 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [upto_step m c 123 128 (by decide)]
  simp only [ops, List.take_succ_cons, List.take_zero, List.drop_succ_cons, List.drop_zero]
  after_results
  exact logit_123 m c

set_option maxHeartbeats 8000000 in
/-- Operations 129 – 131 leave the shifted rows. -/
theorem shift_131 : upto m c 131 (Proc.devRef .tc main_call3_v5) = val_main_call3_v5 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [upto_step m c 128 131 (by decide)]
  simp only [ops, List.take_succ_cons, List.take_zero, List.drop_succ_cons, List.drop_zero]
  after_results
  rw [logit_128 m c, rowmax_128 m c]
  unfold val_main_call3_v5 val_main_call3_v4 val_main_call3_v3
  exact shift_closed _ _

set_option maxHeartbeats 8000000 in
/-- Operations 132 – 134 leave the sums of exponentials. -/
theorem sum_134 : upto m c 134 (Proc.devRef .tc main_call3_v7) = val_main_call3_v7 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [upto_step m c 131 134 (by decide)]
  simp only [ops, List.take_succ_cons, List.take_zero, List.drop_succ_cons, List.drop_zero]
  after_results
  rw [shift_131 m c]
  unfold val_main_call3_v7 val_main_call3_v6 val_main_call3_cst_1
  exact sum_closed _

set_option maxHeartbeats 8000000 in
/-- After them the shifted rows are as they were. -/
theorem shift_134 : upto m c 134 (Proc.devRef .tc main_call3_v5) = val_main_call3_v5 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [upto_step m c 131 134 (by decide)]
  simp only [ops, List.take_succ_cons, List.take_zero, List.drop_succ_cons, List.drop_zero]
  after_results
  exact shift_131 m c

set_option maxHeartbeats 8000000 in
/-- Operations 135 – 138 leave the result: the whole line's fold at the result buffer is the last stage. -/
theorem result : after (ops (F := Ideal)) (launchContents m c) (Proc.devRef .tc main_v95)
    = val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [whole m c]
  simp only [ops, List.take_succ_cons, List.take_zero, List.drop_succ_cons, List.drop_zero]
  after_results
  rw [shift_134 m c, sum_134 m c]
  unfold val_main_v95 val_main_call3_v10 val_main_call3_v9 val_main_call3_v8
  exact out_closed _ _

/-! ## The run -/

/-- From any memory with zero counters, every weakly fair execution of the reference terminates, nothing faulting, with
    the result array at the last stage of the six arguments and the arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v95)
        = val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v95).trans (result m c),
      (h c main_arg0).trans (kept0 m c), (h c main_arg1).trans (kept1 m c), (h c main_arg2).trans (kept2 m c),
      (h c main_arg3).trans (kept3 m c), (h c main_arg4).trans (kept4 m c), (h c main_arg5).trans (kept5 m c)⟩)
    (run_seq scopedRefs_eq scopedSems_eq defs main (fun _ => ops) main_eq (fun _ => ops_sub) m ρ)

end Cert.ReferenceIdeal.Stretches

end
-- ==== Proof.Layers.lean ====
/-
  The three dense stages of a two-layer graph convolution, as functions of whole arrays on the extended reals.

  Between the stages the network aggregates over the edges of the graph (a gather of rows, a scaling by the symmetric
  degree normalisation, a scatter-add into the target rows); that part is the same sequence of array operations in
  both programs and is never opened.  What differs between the programs is how the dense stages are computed, so each is
  stated here once, entry by entry:

    dense x w         (r, c) ↦ Σ_k x(r,k) · w(k,c)                                     the first feature transform
    reluDense a b w   (r, c) ↦ Σ_k max (a(r,k) + b(k)) 0 · w(k,c)                      bias, rectifier, second transform
    logSoftmaxRows a b  (r, c) ↦ (z(c) − μ) − log Σ_d exp (z(d) − μ),  z(d) = a(r,d) + b(d),  μ = max_d z(d)

  The rectifier's zero and the maximum's starting value −∞ are kept as the float patterns both programs spell, so no
  pattern is ever evaluated here.
-/
import Idealize.ShloMosaic.Lib.ValueIdx
import Idealize.ShloMosaic.PureOps.Ideal

noncomputable section

open scoped BigOperators

namespace Cert.Layers

open Idealize.ShloMosaic Idealize.ShloMosaic.ValueIdx

/-- The first feature transform: row `r` of `x` against column `c` of `w`. -/
def dense (x : FVec Ideal ⟨2, ![100000, 512]⟩ .f32) (w : FVec Ideal ⟨2, ![512, 16]⟩ .f32) :
    FVec Ideal ⟨2, ![100000, 16]⟩ .f32 :=
  fun i => ∑ k : Fin 512, x (ix2 (i 0) k) * w (ix2 k (i 1))

/-- Bias, rectifier and the second feature transform, fused: the rectified row `r` of `a + b` against column `c` of `w`. -/
def reluDense (a : FVec Ideal ⟨2, ![100000, 16]⟩ .f32) (b : FVec Ideal ⟨1, ![16]⟩ .f32)
    (w : FVec Ideal ⟨2, ![16, 40]⟩ .f32) : FVec Ideal ⟨2, ![100000, 40]⟩ .f32 :=
  fun i => ∑ k : Fin 16, max (a (ix2 (i 0) k) + b (ix1 k)) (Ideal.ofBits .f32 0x00000000#32) * w (ix2 k (i 1))

/-- Row `r` of `a` with the bias added, as a function of the class index. -/
def logits (a : FVec Ideal ⟨2, ![100000, 40]⟩ .f32) (b : FVec Ideal ⟨1, ![40]⟩ .f32) (r : Fin 100000) : Fin 40 → EReal :=
  fun d => a (ix2 r d) + b (ix1 d)

/-- The largest logit of a row: the fold of `max` from −∞ over the 40 classes. -/
def rowMax (z : Fin 40 → EReal) : EReal :=
  (Finset.univ : Finset (Fin 40)).fold max (Ideal.ofBits .f32 0xFF800000#32) z

/-- The largest logit is at least the value the fold starts from. -/
theorem start_le_rowMax (z : Fin 40 → EReal) : Ideal.ofBits .f32 0xFF800000#32 ≤ rowMax z := by
  unfold rowMax
  generalize (Finset.univ : Finset (Fin 40)) = s
  induction s using Finset.induction_on with
  | empty => simp
  | insert a s ha ih => rw [Finset.fold_insert ha]; exact ih.trans (le_max_right _ _)

/-- The logarithm of the soft-max of each row, computed stably: shift by the row's maximum, then subtract the
    logarithm of the sum of exponentials of the shifted row. -/
def logSoftmaxRows (a : FVec Ideal ⟨2, ![100000, 40]⟩ .f32) (b : FVec Ideal ⟨1, ![40]⟩ .f32) :
    FVec Ideal ⟨2, ![100000, 40]⟩ .f32 :=
  fun i => (logits a b (i 0) (i 1) - rowMax (logits a b (i 0)))
    - Ideal.log (∑ d : Fin 40, Ideal.exp (logits a b (i 0) d - rowMax (logits a b (i 0))))

end Cert.Layers

end
-- ==== Proof.LibScatterConst.lean ====
/-
  Two general facts about array operations, free of any particular program.

  A scatter that overwrites with one constant.  A scatter whose body returns the update, and whose update values are all
  one constant c, is a left fold of overwrites by c over the update indices.  Because every overwrite writes the same
  value, neither the order of the updates nor how many of them share a target matters: at an operand index i' the
  result is c when some update index lands at i', and the operand's element when none does.  This is proved first for a
  fold over any list of steps that each overwrite at most one index with c (foldl_overwrite_const), then for the
  scatter (scatter_const_apply).

  A maximum over a finite set.  The fold of the maximum from a starting value b over a finite family is at least
  every member (le_fold_of_mem), and is b or one of the members (fold_eq_init_or_mem); and the reduction by maximum over
  the second axis of a two-axis array of extended reals is, at row p, that fold over the row's entries
  (hostReduce_max_rows).
-/
import Idealize.ShloMosaic.PureOps.ShapeOps
import Idealize.ShloMosaic.PureOps.Reduce
import Idealize.ShloMosaic.PureOps.Ideal.Laws
import Idealize.ShloMosaic.Lib.ValueIdx

noncomputable section

namespace Cert.ScatterConst

open Idealize.ShloMosaic Idealize.ShloMosaic.ValueIdx

/-- Overwriting by one constant, folded over a list of steps. Step `k` has a target `R k` (or none): with a target `i` it
    makes the function `c` at `i` and leaves it alone elsewhere, with no target it leaves it alone everywhere. After the
    whole list the function is, at `i'`, either `c`, and then some step of the list targeted `i'`, or what it was at the
    start, and then no step of the list targeted `i'`. No order of the steps matters: every overwrite writes the same
    value. -/
theorem foldl_overwrite_const {ι κ α : Type} (R : κ → Option ι) (c : α) (step : (ι → α) → κ → ι → α)
    (h_hit : ∀ r k i, R k = some i → step r k i = c)
    (h_miss : ∀ r k i i', R k = some i → i' ≠ i → step r k i' = r i')
    (h_none : ∀ r k, R k = none → step r k = r) (i' : ι) :
    ∀ (l : List κ) (x : ι → α),
      (l.foldl step x i' = c ∧ ∃ k ∈ l, R k = some i') ∨ (l.foldl step x i' = x i' ∧ ∀ k ∈ l, R k ≠ some i')
  | [], x => Or.inr ⟨rfl, fun k hk => absurd hk (List.not_mem_nil)⟩
  | k :: l, x => by
    rw [List.foldl_cons]
    rcases foldl_overwrite_const R c step h_hit h_miss h_none i' l (step x k) with ⟨h1, n, hn, hR⟩ | ⟨h1, h2⟩
    · exact Or.inl ⟨h1, n, List.mem_cons_of_mem _ hn, hR⟩
    · rw [h1]
      cases hk : R k with
      | none =>
        rw [h_none x k hk]
        refine Or.inr ⟨rfl, fun n hn => ?_⟩
        rcases List.mem_cons.1 hn with rfl | hn
        · rw [hk]; exact (Option.some_ne_none i').symm
        · exact h2 n hn
      | some i =>
        by_cases hi : i' = i
        · subst hi
          exact Or.inl ⟨h_hit x k _ hk, k, List.mem_cons_self, hk⟩
        · refine Or.inr ⟨h_miss x k i i' hk hi, fun n hn => ?_⟩
          rcases List.mem_cons.1 hn with rfl | hn
          · rw [hk]; intro e; exact hi (Option.some.inj e).symm
          · exact h2 n hn

/-- A scatter whose body returns the update, with every update value the same `c`: at `i'` the result is `c`, and
    then some update index lands at `i'`, or it is the operand's element, and then no update index lands at `i'`. -/
theorem scatter_const_apply {s si u : Shape} {α : Type} {w : Nat} (d : ScatterDims s si u) (x : s.Idx → α) (idx : IVec si w)
    (upd : u.Idx → α) (c : α) (hupd : ∀ j, upd j = c) (i' : s.Idx) :
    (Host.scatter d (fun _ b => b) x idx upd i' = c
        ∧ ∃ n ∈ List.finRange u.numel, d.resultIdx? (u.rowMajor.symm n) idx = some i')
      ∨ (Host.scatter d (fun _ b => b) x idx upd i' = x i'
        ∧ ∀ n ∈ List.finRange u.numel, d.resultIdx? (u.rowMajor.symm n) idx ≠ some i') := by
  unfold Host.scatter
  refine foldl_overwrite_const (fun n => d.resultIdx? (u.rowMajor.symm n) idx) c _ ?_ ?_ ?_ i' _ x
  · intro r k i hk
    beta_reduce at hk ⊢
    rw [hk]
    dsimp only
    rw [if_pos rfl]
    exact hupd _
  · intro r k i i'' hk hi
    beta_reduce at hk ⊢
    rw [hk]
    dsimp only
    rw [if_neg hi]
  · intro r k hk
    beta_reduce at hk ⊢
    rw [hk]

/-- A fold of the maximum over a finite set, from `b`, is at least every folded value. -/
theorem le_fold_of_mem {ι β : Type} [DecidableEq ι] [LinearOrder β] (op : β → β → β) [Std.Commutative op] [Std.Associative op]
    (hop : ∀ x y, op x y = max x y) (b : β) (f : ι → β) (s : Finset ι) :
    ∀ x ∈ s, f x ≤ s.fold op b f := by
  induction s using Finset.induction_on with
  | empty => intro x hx; simp at hx
  | insert a s ha ih =>
    intro x hx
    rw [Finset.fold_insert ha, hop]
    rcases Finset.mem_insert.1 hx with rfl | hx
    · exact le_max_left _ _
    · exact (ih x hx).trans (le_max_right _ _)

/-- A fold of the maximum over a finite set, from `b`, is `b` or one of the folded values. -/
theorem fold_eq_init_or_mem {ι β : Type} [DecidableEq ι] [LinearOrder β] (op : β → β → β) [Std.Commutative op] [Std.Associative op]
    (hop : ∀ x y, op x y = max x y) (b : β) (f : ι → β) (s : Finset ι) :
    s.fold op b f = b ∨ ∃ x ∈ s, s.fold op b f = f x := by
  induction s using Finset.induction_on with
  | empty => left; simp
  | insert a s ha ih =>
    rw [Finset.fold_insert ha, hop]
    rcases max_choice (f a) (s.fold op b f) with h | h
    · right; exact ⟨a, Finset.mem_insert_self _ _, h⟩
    · rw [h]
      rcases ih with ih | ⟨x, hx, ih⟩
      · left; exact ih
      · right; exact ⟨x, Finset.mem_insert_of_mem hx, ih⟩

/-- The maximum over the second axis of an [a, n] array of extended reals, from the starting value's element: at row
    `p` it is the fold of the maximum over the columns `q` of the entries `(p, q)`. -/
theorem hostReduce_max_rows {a n : ℕ} {φ : FTy} {u : Shape} (y : FVec Ideal ⟨2, ![a, n]⟩ φ) (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduce (FloatOps.maximumf (F := Ideal) (φ := φ)) y init h' hu (ix1 p)
      = (Finset.univ : Finset (Fin n)).fold (FloatOps.maximumf (F := Ideal) (φ := φ)) (init (Shape.Idx.first hu))
          (fun q => y (ix2 p q)) := by
  rw [Host.reduce_eq_fold_single (s := ⟨2, ![a, n]⟩) (t := ⟨1, ![a]⟩) (a := (1 : Fin 2))
    (FloatOps.maximumf (F := Ideal) (φ := φ)) y init h' h hu (ix1 p)]
  refine Finset.fold_congr fun k _ => ?_
  rw [Function.comp_apply]
  exact congrArg y (funext fun ax => Fin.ext (by match ax with | ⟨0, _⟩ => rfl | ⟨1, _⟩ => rfl))

end Cert.ScatterConst

end
-- ==== Proof.RefLayers.lean ====
/-
  The reference's dense stages are the functions of `Layers`, entry by entry.

  Its first `dot_general` is Σ_k x(r,k) · W1(k,c).  Its second is taken of the rectified sum of the first aggregate and
  the bias, the bias a vector repeated along the rows: Σ_k max (a(r,k) + b1(k)) 0 · W2(k,c).  Its logarithm of the
  soft-max adds the bias b2 the same way, takes the row maximum by a reduction from −∞ (and once more the maximum with
  −∞, which changes nothing: the fold already starts there), shifts, and subtracts the logarithm of the sum of
  exponentials, the sum started from zero.
-/
import proofs.«138297_j584115552600_1_alg».proof.Proof.RefRead
import proofs.«138297_j584115552600_1_alg».proof.Proof.Layers
import proofs.«138297_j584115552600_1_alg».proof.Proof.LibScatterConst
import Idealize.ShloMosaic.Lib.ValueIdx
import Idealize.ShloMosaic.PureOps.Ideal.Laws

noncomputable section

open scoped BigOperators

namespace Cert.RefLayers

open Cert.ReferenceIdeal Cert.ReferenceIdeal.Gen Cert.ReferenceIdeal.ReadP Idealize.ShloMosaic Idealize.ShloMosaic.ValueIdx

variable (x0 : (⟨S100000x512, .f32⟩ : BufTy).Contents (Elt Ideal)) (x1 : (⟨S2x3200000, .i32⟩ : BufTy).Contents (Elt Ideal))
  (x2 : (⟨S512x16, .f32⟩ : BufTy).Contents (Elt Ideal)) (x3 : (⟨S16, .f32⟩ : BufTy).Contents (Elt Ideal))
  (x4 : (⟨S16x40, .f32⟩ : BufTy).Contents (Elt Ideal)) (x5 : (⟨S40, .f32⟩ : BufTy).Contents (Elt Ideal))

/-- The first feature transform. -/
theorem dense_eq : val_main_v30 (F := Ideal) x0 x2 = Cert.Layers.dense x0 x2 := by
  funext i
  obtain ⟨r, q, rfl⟩ : ∃ (r : Fin 100000) (q : Fin 16), i = ix2 r q := ⟨i 0, i 1, eq_ix2 i⟩
  rw [val_main_v30_apply]
  refine Finset.sum_congr rfl fun k _ => ?_
  have el : lidx_main_v30 (ix2 r q) k = ix2 r k :=
    funext fun a => Fin.ext (by match a with | ⟨0, _⟩ => rfl | ⟨1, _⟩ => rfl)
  have er : ridx_main_v30 (ix2 r q) k = ix2 k q :=
    funext fun a => Fin.ext (by match a with | ⟨0, _⟩ => rfl | ⟨1, _⟩ => rfl)
  rw [el, er]

/-- Bias, rectifier and the second feature transform. -/
theorem reluDense_eq :
    val_main_v78 (F := Ideal) x0 x1 x2 x3 x4 = Cert.Layers.reluDense (val_main_v43 (F := Ideal) x0 x1 x2) x3 x4 := by
  funext i
  obtain ⟨r, q, rfl⟩ : ∃ (r : Fin 100000) (q : Fin 40), i = ix2 r q := ⟨i 0, i 1, eq_ix2 i⟩
  rw [val_main_v78_apply]
  refine Finset.sum_congr rfl fun k _ => ?_
  have el : lidx_main_v78 (ix2 r q) k = ix2 r k :=
    funext fun a => Fin.ext (by match a with | ⟨0, _⟩ => rfl | ⟨1, _⟩ => rfl)
  have er : ridx_main_v78 (ix2 r q) k = ix2 k q :=
    funext fun a => Fin.ext (by match a with | ⟨0, _⟩ => rfl | ⟨1, _⟩ => rfl)
  have eb : idx_main_v44 (idx_main_v45 (ix2 r k)) = ix1 k :=
    funext fun a => Fin.ext (by match a with | ⟨0, _⟩ => rfl)
  rw [el, er, val_main_v47_apply, val_main_v46_apply, val_main_v45_apply, val_main_v44_apply, val_main_call1_v0_apply, eb]
  -- from here on the first aggregate is any array
  generalize val_main_v43 (F := Ideal) x0 x1 x2 = A
  rfl

/-- The fold of the maximum as the reference's reduction spells it is the row maximum. -/
theorem fold_eq_rowMax (z : Fin 40 → EReal) :
    (Finset.univ : Finset (Fin 40)).fold (FloatOps.maximumf (F := Ideal) (φ := .f32))
      (Ideal.ofBits .f32 0xFF800000#32) z = Cert.Layers.rowMax z := rfl

section LogSoftmax

/-! From here on the second aggregate is any array `A`. -/
variable (A : (⟨S100000x40, .f32⟩ : BufTy).Contents (Elt Ideal))
  (hA : val_main_v91 (F := Ideal) x0 x1 x2 x3 x4 = A)
include hA

/-- The logits: the aggregate plus the bias vector repeated along the rows. -/
theorem logits_eq (r : Fin 100000) (d : Fin 40) :
    val_main_v94 (F := Ideal) x0 x1 x2 x3 x4 x5 (ix2 r d) = Cert.Layers.logits A x5 r d := by
  have eb : idx_main_v92 (idx_main_v93 (ix2 r d)) = ix1 d :=
    funext fun a => Fin.ext (by match a with | ⟨0, _⟩ => rfl)
  rw [val_main_v94_apply, val_main_v93_apply, val_main_v92_apply, eb, hA]
  rfl

/-- The row maximum: the reduction from −∞, and once more the maximum with −∞, which changes nothing. -/
theorem rowMax_eq (r : Fin 100000) :
    val_main_call3_v2 (F := Ideal) x0 x1 x2 x3 x4 x5 (ix1 r) = Cert.Layers.rowMax (Cert.Layers.logits A x5 r) := by
  rw [val_main_call3_v2_apply, val_main_call3_v1_apply]
  unfold val_main_call3_v0
  rw [Cert.ScatterConst.hostReduce_max_rows (val_main_v94 (F := Ideal) x0 x1 x2 x3 x4 x5)
    (val_main_call3_cst (F := Ideal)) _ (by decide) _ r]
  simp only [logits_eq x0 x1 x2 x3 x4 x5 A hA, val_main_call3_cst_0_apply, val_main_call3_cst_apply, Ideal.ofBits_def,
    fold_eq_rowMax, Ideal.maximumf_def]
  exact max_eq_right (Cert.Layers.start_le_rowMax _)

/-- The shifted row. -/
theorem shifted_eq (r : Fin 100000) (d : Fin 40) :
    val_main_call3_v5 (F := Ideal) x0 x1 x2 x3 x4 x5 (ix2 r d)
      = Cert.Layers.logits A x5 r d - Cert.Layers.rowMax (Cert.Layers.logits A x5 r) := by
  have e4 : idx_main_call3_v3 (idx_main_call3_v4 (ix2 r d)) = ix1 r :=
    funext fun a => Fin.ext (by match a with | ⟨0, _⟩ => rfl)
  rw [val_main_call3_v5_apply, val_main_call3_v4_apply, val_main_call3_v3_apply, e4,
    rowMax_eq x0 x1 x2 x3 x4 x5 A hA, logits_eq x0 x1 x2 x3 x4 x5 A hA]
  rfl

/-- The result at an entry: the shifted logit minus the logarithm of the sum of exponentials of the shifted row, the
    sum started from zero. -/
theorem logSoftmax_at (r : Fin 100000) (q : Fin 40) :
    val_main_v95 (F := Ideal) x0 x1 x2 x3 x4 x5 (ix2 r q) = Cert.Layers.logSoftmaxRows A x5 (ix2 r q) := by
  have e10 : idx_main_call3_v8 (idx_main_call3_v10 (ix2 r q)) = ix1 r :=
    funext fun a => Fin.ext (by match a with | ⟨0, _⟩ => rfl)
  have e7 : ∀ k : Fin 40, idx_main_call3_v7 (ix1 r) k = ix2 r k := fun k =>
    funext fun a => Fin.ext (by match a with | ⟨0, _⟩ => rfl | ⟨1, _⟩ => rfl)
  rw [val_main_v95_apply, shifted_eq x0 x1 x2 x3 x4 x5 A hA, val_main_call3_v10_apply, val_main_call3_v9_apply,
    val_main_call3_v8_apply, e10, val_main_call3_v7_apply]
  -- each summand is the exponential of a shifted logit
  have hs : ∀ k : Fin 40, val_main_call3_v6 (F := Ideal) x0 x1 x2 x3 x4 x5 (idx_main_call3_v7 (ix1 r) k)
      = Ideal.exp (Cert.Layers.logits A x5 r k - Cert.Layers.rowMax (Cert.Layers.logits A x5 r)) := fun k => by
    rw [e7 k, val_main_call3_v6_apply, shifted_eq x0 x1 x2 x3 x4 x5 A hA]
    rfl
  rw [Finset.sum_congr rfl (fun k _ => hs k), val_main_call3_cst_1_apply, Ideal.ofBits_def, Ideal.ofBits_zero_f32, zero_add]
  rfl

end LogSoftmax

/-- The logarithm of the soft-max of the second aggregate plus the bias, row by row. -/
theorem logSoftmax_eq :
    val_main_v95 (F := Ideal) x0 x1 x2 x3 x4 x5
      = Cert.Layers.logSoftmaxRows (val_main_v91 (F := Ideal) x0 x1 x2 x3 x4) x5 := by
  funext i
  obtain ⟨r, q, rfl⟩ : ∃ (r : Fin 100000) (q : Fin 40), i = ix2 r q := ⟨i 0, i 1, eq_ix2 i⟩
  exact logSoftmax_at x0 x1 x2 x3 x4 x5 _ rfl r q

end Cert.RefLayers

end
-- ==== Proof.Edges.lean ====
/-
  The aggregation over the edges of the graph, carried as ONE function per layer.

  Both programs aggregate a node-feature array h over the graph in the same way: the edge list is the given edges
  followed by one self-loop per node; the degree of a node counts the edges that end in it; each edge (s → d) carries
  the weight deg(s)^(-1/2) · deg(d)^(-1/2); row d of the result is the sum over the edges ending in d of weight · row s
  of h.  As array operations: a gather of rows of h at the source nodes, a product with the weights repeated along the
  features, a scatter-add into the target rows of a zero array.

  That sequence is the same in the two programs, so it is named here once per feature width (16 and 40) as a function
  of the edge array and of h, over the reference's stages, and never opened: no gather or scatter is read at an index.
  The reference recomputes the edge lists and the weights for its second layer; those copies are the first ones, term by
  term.
-/
import proofs.«138297_j584115552600_1_alg».proof.Proof.RefRead

noncomputable section

namespace Cert.Edges

open Cert.ReferenceIdeal Cert.ReferenceIdeal.ReadP Idealize.ShloMosaic

/-- The first layer's aggregation of a [100000, 16] array over the graph given by the edge array. -/
def agg16 (x1 : (⟨S2x3200000, .i32⟩ : BufTy).Contents (Elt Ideal))
    (h : (⟨S100000x16, .f32⟩ : BufTy).Contents (Elt Ideal)) : (⟨S100000x16, .f32⟩ : BufTy).Contents (Elt Ideal) :=
  Host.scatterAdd (F := Ideal) scatter_S100000x16_S3300000x1_S3300000x16_1_0_0_1 (val_main_v41 (F := Ideal))
    (val_main_v42 (F := Ideal) x1)
    (mulf (F := Ideal) (φ := .f32)
      (Host.gather gather_S100000x16_S3300000x1_S3300000x16_1_0_n_n_0_1_116 h (val_main_v36 (F := Ideal) x1))
      (val_main_v39 (F := Ideal) x1))

/-- The second layer's aggregation of a [100000, 40] array, over the reference's second copies of the edge lists and
    weights. -/
def agg40 (x1 : (⟨S2x3200000, .i32⟩ : BufTy).Contents (Elt Ideal))
    (h : (⟨S100000x40, .f32⟩ : BufTy).Contents (Elt Ideal)) : (⟨S100000x40, .f32⟩ : BufTy).Contents (Elt Ideal) :=
  Host.scatterAdd (F := Ideal) scatter_S100000x40_S3300000x1_S3300000x40_1_0_0_1 (val_main_v89 (F := Ideal))
    (val_main_v90 (F := Ideal) x1)
    (mulf (F := Ideal) (φ := .f32)
      (Host.gather gather_S100000x40_S3300000x1_S3300000x40_1_0_n_n_0_1_140 h (val_main_v84 (F := Ideal) x1))
      (val_main_v87 (F := Ideal) x1))

variable (x0 : (⟨S100000x512, .f32⟩ : BufTy).Contents (Elt Ideal)) (x1 : (⟨S2x3200000, .i32⟩ : BufTy).Contents (Elt Ideal))
  (x2 : (⟨S512x16, .f32⟩ : BufTy).Contents (Elt Ideal)) (x3 : (⟨S16, .f32⟩ : BufTy).Contents (Elt Ideal))
  (x4 : (⟨S16x40, .f32⟩ : BufTy).Contents (Elt Ideal))

/-- The reference's first aggregate is `agg16` of its first feature transform. -/
theorem layer1 : val_main_v43 (F := Ideal) x0 x1 x2 = agg16 x1 (val_main_v30 (F := Ideal) x0 x2) := rfl

/-- The reference's second aggregate is `agg40` of its second feature transform. -/
theorem layer2 : val_main_v91 (F := Ideal) x0 x1 x2 x3 x4 = agg40 x1 (val_main_v78 (F := Ideal) x0 x1 x2 x3 x4) := rfl

/-- The second copy of the source list (edges then self-loops) is the first. -/
theorem src_copy : val_main_v51 (F := Ideal) x1 = val_main_v3 (F := Ideal) x1 := rfl

/-- The second copy of the target list is the first. -/
theorem dst_copy : val_main_v54 (F := Ideal) x1 = val_main_v6 (F := Ideal) x1 := rfl

/-- The second copy of the edge weights is the first: the same degree count, reciprocal square root and products. -/
theorem weight_copy : val_main_v77 (F := Ideal) x1 = val_main_v29 (F := Ideal) x1 := rfl

end Cert.Edges

end
-- ==== Proof.KernelRun.lean ====
/-
  The kernel's run with its result named.

  The program is three kernel regions among stretches of array operations.  Its buffer contents at each boundary form a
  fold from the launch memory: a stretch of operations applies them in order; a region leaves its input arrays as it
  found them and each output array at what its write-backs, folded in grid order, leave.  Every weakly fair execution
  ends with every buffer the program does not scope at the last boundary's contents.  The frame claim keeps, of that,
  only the argument arrays; here the result array is kept too, at the last boundary's contents of its buffer.
-/
import proofs.«138297_j584115552600_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters, every weakly fair execution of the program terminates, nothing faulting; the
    result array ends at the last boundary's contents of its buffer, and the argument arrays end as launched. -/
theorem run : θ_run defs (onTc (τ := τ) (main (F := F))) ⟨m, fun _ => 0, ρ⟩ (fun r => ∀ c : Dev nD,
      r.2.mem ((c.tc : Thread nD τ).loc main_v60) = W8 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v60 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Run

end
-- ==== Proof.LibPlainMatmul.lean ====
/-
  A plain matrix product read at an entry.

  For the dimension numbers of an ordinary product — an [a, n] array times an [n, b] array, contracting the second
  axis of the left with the first axis of the right, no batch axis — the product accumulated onto the zero array is, on
  the extended reals, at (p, q) the sum over k of left (p, k) · right (k, q).  The extents are variables, so the
  reading does not change with a kernel's tiling.
-/
import Idealize.ShloMosaic.Lib.ValueIdx
import Idealize.ShloMosaic.PureOps.Ideal.Laws

noncomputable section

open scoped BigOperators

namespace Cert.PlainMatmul

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- An ordinary product onto the zero array: at (p, q) the sum over k of left (p, k) · right (k, q). -/
theorem zero_acc_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 p k) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainMatmul

end
-- ==== Proof.LibRowMax.lean ====
/-
  The maximum over the second axis of an [a, n] array, read on the extended reals.

  A row-wise maximum that starts from -∞ (the pattern 0xFF800000) is, at row p, the fold of `max` from -∞ over the
  n entries (p, d) of the row, in any order: `max` is commutative and associative on the extended reals.
-/
import Idealize.ShloMosaic.Lib.ValueIdx
import Idealize.ShloMosaic.PureOps.Ideal.Laws

noncomputable section

namespace Cert.RowMax

open Idealize.ShloMosaic Idealize.ShloMosaic.ValueIdx

/-- The maximum over the second axis of an [a, n] array of extended reals, taken from -∞: at row `p` the fold of
    `max` from -∞ over the entries (p, d). -/
theorem max_over_columns_apply {a n : ℕ} (src : FVec Ideal ⟨2, ![a, n]⟩ .f32)
    (h : (⟨2, ![a, n]⟩ : Shape).Reduces [1] ⟨1, ![a]⟩) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin n)).fold max (Ideal.ofBits .f32 0xFF800000#32) (fun d => src (ix2 p d)) :=
  (Ideal.multiReduction_maximumf_single src 0xFF800000#32 h hφ hacc (ix1 p)).trans
    (Finset.fold_congr fun d _ => congrArg src (funext fun ax => Fin.ext (by
      match ax with
      | ⟨0, _⟩ => rfl
      | ⟨1, _⟩ => rfl)))

end Cert.RowMax

end
-- ==== Proof.LibRowOps.lean ====
/-
  Three readings at an entry (p, q) of a two-axis array, for the shapes a row-wise reduction meets.

  A vector of one value per row, kept as a column [a, 1] and repeated along the columns, reads at (p, q) its value
  for row p.  A vector of one value per column, kept as a row [1, b] and repeated along the rows, reads at (p, q) its
  value for column q.  And the sum over the second axis of an [a, n] array, read on the extended reals, is at row p
  the sum over d of the entries (p, d).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RowOps

open Idealize.ShloMosaic Idealize.ShloMosaic.ValueIdx

variable {α : Type}

/-- One value per row, kept as a column and repeated along `b` columns: at (p, q) it is the value of row `p`. -/
theorem column_repeated_apply {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v hc) hb (ix2 p q) = v (ix1 p) := by
  refine (broadcastTo_apply _ hb (ix2 p q) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else q.val
      rw [if_pos rfl]
  · exact shapeCast_apply v hc _ _ (by
      rw [Shape.rowMajor_val_one, Shape.rowMajor_val_two]
      show p.val = p.val * 1 + 0
      omega)

/-- One value per column, kept as a row and repeated along `a` rows: at (p, q) it is the value of column `q`. -/
theorem row_repeated_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc 0 q)

/-- The sum over the second axis of an [a, n] array of extended reals: at row `p` the sum over `d` of the entries (p, d). -/
theorem sum_over_columns_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ d : Fin n, src (ix2 p d) :=
  (Ideal.multiReduction_add_single src 0x00000000#32 h hφ hacc (ix1 p)).trans
    (Finset.sum_congr rfl fun d _ => congrArg src (funext fun ax => Fin.ext (by
      match ax with
      | ⟨0, _⟩ => rfl
      | ⟨1, _⟩ => rfl)))

end Cert.RowOps

end
-- ==== Proof.BlockBodies.lean ====
/-
  What each of the three kernel bodies stores, read at an entry (p, q) of its 2000-row block, on the extended reals.

  The first body multiplies a [2000, 512] block of x by the whole of W1 (the change to a narrower float format before the
  product is the identity here): the entry is Σ_k x(p,k) · W1(k,q).  The second adds the bias row to a [2000, 16] block,
  rectifies, and multiplies by the whole of W2.  The third adds the bias row to a [2000, 40] block and takes the
  logarithm of the soft-max along each row: the row's maximum is a lane reduction from −∞, kept as a column and repeated
  along the row; the sum of exponentials likewise.
-/
import proofs.«138297_j584115552600_1_alg».proof.Proof.Gen.KernelIdeal.Skeleton
import proofs.«138297_j584115552600_1_alg».proof.Proof.LibPlainMatmul
import proofs.«138297_j584115552600_1_alg».proof.Proof.LibRowMax
import proofs.«138297_j584115552600_1_alg».proof.Proof.LibRowOps
import proofs.«138297_j584115552600_1_alg».proof.Proof.Layers
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Blocks

open Cert.KernelIdeal Cert.KernelIdeal.Gen Idealize.ShloMosaic Idealize.ShloMosaic.ValueIdx

/-- The first body's block: row `p` of the x block against column `q` of W1. -/
theorem matmul_block (x0 : Vec Ideal S2000x512 .f32) (x1 : Vec Ideal S512x16 .f32) (p : Fin 2000) (q : Fin 16) :
    k0_pay1 (F := Ideal) x0 x1 (ix2 p q) = ∑ k : Fin 512, x0 (ix2 p k) * x1 (ix2 k q) := by
  unfold k0_pay1
  exact Cert.PlainMatmul.zero_acc_apply _ none (truncf .bf16 x0 bitsLt_bf16_f32) (truncf .bf16 x1 bitsLt_bf16_f32) p q

/-- The second body's block: the rectified row `p` of (block + bias row) against column `q` of W2. -/
theorem relu_matmul_block (v0 : Vec Ideal S2000x16 .f32) (v2 : Vec Ideal S1x16 .f32) (v9 : Vec Ideal S16x40 .f32)
    (p : Fin 2000) (q : Fin 40) :
    k1_pay1 (F := Ideal) v0 v2 v9 (ix2 p q)
      = ∑ k : Fin 16, max (v0 (ix2 p k) + v2 (ix2 (0 : Fin 1) k)) (Ideal.ofBits .f32 0x00000000#32) * v9 (ix2 k q) := by
  unfold k1_pay1
  refine (Cert.PlainMatmul.zero_acc_apply _ none _ _ p q).trans ?_
  refine Finset.sum_congr rfl fun k _ => ?_
  show max (shapeCast S2000x16 v0 shapeCasts_S2000x16_S2000x16 (ix2 p k)
      + broadcastTo S2000x16 (shapeCast S1x16 v2 shapeCasts_S1x16_S1x16) broadcasts_S1x16_S2000x16 (ix2 p k))
      (Ideal.ofBits .f32 0x00000000#32) * v9 (ix2 k q) = _
  rw [shapeCast_self, shapeCast_self, broadcastTo_1b_ab_apply]

/-- The stable logarithm of the soft-max along the rows of any [2000, 40] array `z`, as the third body spells it: the
    row's maximum (a lane reduction from −∞) kept as a column and repeated along the row, subtracted; the exponentials
    summed along the row, the logarithm of the sum kept as a column, repeated, subtracted. At (p, q) it is
    (z(p,q) − μ) − log Σ_d exp (z(p,d) − μ) with μ the largest entry of row p. -/
theorem logsoftmax_rows (z : FVec Ideal S2000x40 .f32) (p : Fin 2000) (q : Fin 40) :
    subf
      (subf z (broadcastTo S2000x40 (shapeCast S2000x1
        (multiReduction .maximumf [1] S2000 z 0xFF800000#32 reduces_S2000x40_S2000 (.inl rfl) rfl)
        shapeCasts_S2000_S2000x1) broadcasts_S2000x1_S2000x40))
      (broadcastTo S2000x40 (log (shapeCast S2000x1
        (multiReduction .add [1] S2000
          (exp (subf z (broadcastTo S2000x40 (shapeCast S2000x1
            (multiReduction .maximumf [1] S2000 z 0xFF800000#32 reduces_S2000x40_S2000 (.inl rfl) rfl)
            shapeCasts_S2000_S2000x1) broadcasts_S2000x1_S2000x40)))
          0x00000000#32 reduces_S2000x40_S2000 (.inl rfl) rfl)
        shapeCasts_S2000_S2000x1)) broadcasts_S2000x1_S2000x40) (ix2 p q)
      = (z (ix2 p q) - Cert.Layers.rowMax (fun d => z (ix2 p d)))
          - Ideal.log (∑ d : Fin 40, Ideal.exp (z (ix2 p d) - Cert.Layers.rowMax (fun d => z (ix2 p d)))) := by
  -- the repeated column of row maxima, at any entry of row p
  have hmx : ∀ q' : Fin 40,
      broadcastTo S2000x40 (shapeCast S2000x1
        (multiReduction .maximumf [1] S2000 z 0xFF800000#32 reduces_S2000x40_S2000 (.inl rfl) rfl)
        shapeCasts_S2000_S2000x1) broadcasts_S2000x1_S2000x40 (ix2 p q')
        = Cert.Layers.rowMax (fun d => z (ix2 p d)) := fun q' =>
    (Cert.RowOps.column_repeated_apply _ shapeCasts_S2000_S2000x1 broadcasts_S2000x1_S2000x40 p q').trans
      (Cert.RowMax.max_over_columns_apply z reduces_S2000x40_S2000 (.inl rfl) rfl p)
  generalize broadcastTo S2000x40 (shapeCast S2000x1
        (multiReduction .maximumf [1] S2000 z 0xFF800000#32 reduces_S2000x40_S2000 (.inl rfl) rfl)
        shapeCasts_S2000_S2000x1) broadcasts_S2000x1_S2000x40 = M at hmx ⊢
  -- the sum of the exponentials of the shifted row
  have hsum : multiReduction .add [1] S2000 (exp (subf z M)) 0x00000000#32 reduces_S2000x40_S2000 (.inl rfl) rfl (ix1 p)
      = ∑ d : Fin 40, Ideal.exp (z (ix2 p d) - Cert.Layers.rowMax (fun d => z (ix2 p d))) :=
    (Cert.RowOps.sum_over_columns_apply (exp (subf z M)) reduces_S2000x40_S2000 (.inl rfl) rfl p).trans
      (Finset.sum_congr rfl fun d _ => by
        show Ideal.exp (z (ix2 p d) - M (ix2 p d)) = _
        rw [hmx])
  show (z (ix2 p q) - M (ix2 p q))
      - broadcastTo S2000x40 (shapeCast S2000x1
          (log (multiReduction .add [1] S2000 (exp (subf z M)) 0x00000000#32 reduces_S2000x40_S2000 (.inl rfl) rfl))
          shapeCasts_S2000_S2000x1) broadcasts_S2000x1_S2000x40 (ix2 p q) = _
  rw [hmx, Cert.RowOps.column_repeated_apply]
  show _ - Ideal.log (multiReduction .add [1] S2000 (exp (subf z M)) 0x00000000#32 reduces_S2000x40_S2000 (.inl rfl) rfl (ix1 p)) = _
  rw [hsum]

/-- The third body's block: the stable logarithm of the soft-max of row `p` of (block + bias row), at class `q`. -/
theorem logsoftmax_block (v0 : FVec Ideal S2000x40 .f32) (v2 : FVec Ideal S1x40 .f32) (p : Fin 2000) (q : Fin 40) :
    k2_pay1 (F := Ideal) v0 v2 (ix2 p q)
      = ((v0 (ix2 p q) + v2 (ix2 (0 : Fin 1) q))
          - Cert.Layers.rowMax (fun d => v0 (ix2 p d) + v2 (ix2 (0 : Fin 1) d)))
        - Ideal.log (∑ d : Fin 40, Ideal.exp ((v0 (ix2 p d) + v2 (ix2 (0 : Fin 1) d))
            - Cert.Layers.rowMax (fun d => v0 (ix2 p d) + v2 (ix2 (0 : Fin 1) d)))) := by
  -- the block with the bias row added, at an entry
  have hz : ∀ d : Fin 40,
      (addf (F := Ideal) (φ := .f32) (shapeCast S2000x40 v0 shapeCasts_S2000x40_S2000x40)
        (broadcastTo S2000x40 (shapeCast S1x40 v2 shapeCasts_S1x40_S1x40) broadcasts_S1x40_S2000x40)) (ix2 p d)
        = v0 (ix2 p d) + v2 (ix2 (0 : Fin 1) d) := fun d => by
    show shapeCast S2000x40 v0 shapeCasts_S2000x40_S2000x40 (ix2 p d)
      + broadcastTo S2000x40 (shapeCast S1x40 v2 shapeCasts_S1x40_S1x40) broadcasts_S1x40_S2000x40 (ix2 p d) = _
    rw [shapeCast_self, shapeCast_self, broadcastTo_1b_ab_apply]
  unfold k2_pay1
  refine (logsoftmax_rows _ p q).trans ?_
  simp only [hz]

end Cert.KernelIdeal.Blocks

end
-- ==== Proof.Tiles0.lean ====
/-
  The first region, from blocks to the array.

  The grid has 50 points; point t multiplies rows 2000·t … 2000·t + 1999 of x by the whole of W1 and writes the result
  back as the same rows of the output.  A block's entry (p, q) sits in the array at row 2000·t + p, and the x block's
  entry (p, k) likewise; W1 is one block.  The 50 row bands tile the 100000 rows, so after the region the output array
  is `Layers.dense` of the two arrays as the region found them.
-/
import proofs.«138297_j584115552600_1_alg».proof.Proof.Gen.KernelIdeal.Frame
import proofs.«138297_j584115552600_1_alg».proof.Proof.BlockBodies
import proofs.«138297_j584115552600_1_alg».proof.Proof.Layers
import Idealize.ShloMosaic.Lib.Pipeline.Value
import Idealize.ShloMosaic.Lib.ValueIdx

set_option maxRecDepth 16384

noncomputable section

open scoped BigOperators

namespace Cert.KernelIdeal.Tiles

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem offsets_zero : (![0, 0] : Fin 2 → Nat) = fun _ => 0 := funext fun a => by fin_cases a <;> rfl

/-- Row `p` of the band of grid point `t`, as a row of the array. -/
def bandRow (t p : Nat) (ht : t < 50) (hp : p < 2000) : Fin 100000 := ⟨t * 2000 + p, by omega⟩

/-- The printed index maps of the first region, decided over its 50 points: the x block and the output block are row
    band `t`, W1's block is the whole of W1. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point0_lt (t : Fin cfg0.N) : t.val < 50 := lt_of_lt_of_eq t.isLt N_0

/-- Where the x block's entry (p, k) sits in x. -/
theorem emb0_x (t : Fin cfg0.N) (p : Fin 2000) (k : Fin 512) :
    ((cfg0.win 0).blk t).view.emb (ix2 p k) = ix2 (bandRow t.val p.val (point0_lt t) p.isLt) k := by
  obtain ⟨e0, e1, -, -, -, -⟩ := index0 t
  funext a; apply Fin.ext
  match a with
  | ⟨0, _⟩ => show win0_0.index t (0 : Fin 2) * 2000 + 1 * p.val = t.val * 2000 + p.val; omega
  | ⟨1, _⟩ => show win0_0.index t (1 : Fin 2) * 512 + 1 * k.val = k.val; omega

/-- W1's one block is W1. -/
theorem emb0_w (t : Fin cfg0.N) (k : Fin 512) (q : Fin 16) :
    ((cfg0.win 1).blk t).view.emb (ix2 k q) = ix2 k q := by
  obtain ⟨-, -, e2, e3, -, -⟩ := index0 t
  funext a; apply Fin.ext
  match a with
  | ⟨0, _⟩ => show win0_1.index t (0 : Fin 2) * 512 + 1 * k.val = k.val; omega
  | ⟨1, _⟩ => show win0_1.index t (1 : Fin 2) * 16 + 1 * q.val = q.val; omega

/-- Where the output block's entry (p, q) sits in the output. -/
theorem emb0_out (t : Fin cfg0.N) (p : Fin 2000) (q : Fin 16) :
    ((cfg0.win 2).blk t).view.emb (ix2 p q) = ix2 (bandRow t.val p.val (point0_lt t) p.isLt) q := by
  obtain ⟨-, -, -, -, e4, e5⟩ := index0 t
  funext a; apply Fin.ext
  match a with
  | ⟨0, _⟩ => show win0_2.index t (0 : Fin 2) * 2000 + 1 * p.val = t.val * 2000 + p.val; omega
  | ⟨1, _⟩ => show win0_2.index t (1 : Fin 2) * 16 + 1 * q.val = q.val; omega

/-- What point `t` writes back is band `t` of `Layers.dense` of the arrays the region found. -/
theorem flushed0 (c : Dev nD) (t : Fin cfg0.N) :
    (dat0 V c).flushed 2 t
      = ((cfg0.win 2).blk t).view.read (Elt Ideal) (Cert.Layers.dense (V c main_arg0) (V c main_arg2)) := by
  show (cfg0.win 2).cut (grid0.coords t) ((dat0 V c).after 2 t) = _
  rw [after0_2]
  unfold out0_2
  rw [View.canon_unit_zero offsets_zero]
  simp only [View.ld_unit_zero (S := S2000x512) offsets_zero, View.ld_unit_zero (S := S512x16) offsets_zero]
  funext j
  obtain ⟨p, q, rfl⟩ : ∃ (p : Fin 2000) (q : Fin 16), j = ix2 p q := ⟨j 0, j 1, eq_ix2 j⟩
  refine (Cert.KernelIdeal.Blocks.matmul_block (iblk0 V c 0 t) (iblk0 V c 1 t) p q).trans ?_
  show _ = Cert.Layers.dense (V c main_arg0) (V c main_arg2) (((cfg0.win 2).blk t).view.emb (ix2 p q))
  rw [emb0_out]
  refine Finset.sum_congr rfl fun k _ => ?_
  have hx : iblk0 V c 0 t (ix2 p k) = V c main_arg0 (ix2 (bandRow t.val p.val (point0_lt t) p.isLt) k) := by
    show V c main_arg0 (((cfg0.win 0).blk t).view.emb (ix2 p k)) = _
    rw [emb0_x]
  have hw : iblk0 V c 1 t (ix2 k q) = V c main_arg2 (ix2 k q) := by
    show V c main_arg2 (((cfg0.win 1).blk t).view.emb (ix2 k q)) = _
    rw [emb0_w]
  rw [hx, hw]

/-- An index of the output is in point `t`'s block iff each coordinate is in the block's range on its axis. -/
theorem mem_band0 (t : Fin cfg0.N) (i : S100000x16.Idx) :
    i ∈ ((cfg0.win 2).blk t).view.set ↔ ∀ a : Fin 2, win0_2.index t a * S2000x16.size a ≤ (i a).val
      ∧ (i a).val < win0_2.index t a * S2000x16.size a + S2000x16.size a := by
  show i ∈ ((View.whole main_v30).slice (win0_2.rect t)).set ↔ _
  rw [View.set_slice_whole, Rect.mem_set_unit]
  exact Iff.rfl

/-- The 50 bands cover the output: row r is in band r / 2000. -/
theorem cover0 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : (i 0).val / 2000 < cfg0.N := by rw [show cfg0.N = 50 from N_0]; omega
  obtain ⟨-, -, -, -, e4, e5⟩ := index0 ⟨(i 0).val / 2000, hN⟩
  refine ⟨⟨(i 0).val / 2000, hN⟩, flush0_2 _, ?_⟩
  rw [mem_band0]
  intro a
  match a with
  | ⟨0, _⟩ =>
    show win0_2.index ⟨(i 0).val / 2000, hN⟩ (0 : Fin 2) * 2000 ≤ (i 0).val
      ∧ (i 0).val < win0_2.index ⟨(i 0).val / 2000, hN⟩ (0 : Fin 2) * 2000 + 2000
    have e4' : win0_2.index ⟨(i 0).val / 2000, hN⟩ (0 : Fin 2) = (i 0).val / 2000 := e4
    omega
  | ⟨1, _⟩ =>
    show win0_2.index ⟨(i 0).val / 2000, hN⟩ (1 : Fin 2) * 16 ≤ (i 1).val
      ∧ (i 1).val < win0_2.index ⟨(i 0).val / 2000, hN⟩ (1 : Fin 2) * 16 + 16
    omega

/-- After the first region its output array holds `x · W1`, of the arrays as the region found them. -/
theorem dense_array (c : Dev nD) :
    (dat0 V c).arrAt 2 cfg0.N = Cert.Layers.dense (V c main_arg0) (V c main_arg2) :=
  (dat0 V c).arrAt_eq_of_cover 2 _ (fun t _ => flushed0 V c t) (cover0)

end Cert.KernelIdeal.Tiles

end
-- ==== Proof.Tiles1.lean ====
/-
  The second region, from blocks to the array.

  Point t of its 50 takes rows 2000·t … 2000·t + 1999 of the first aggregate, adds the bias row (a [1, 16] array, one
  block), rectifies, multiplies by the whole of W2 (one block) and writes the same rows of the output.  The bands tile
  the rows, so after the region the output array is `Layers.reluDense` of the arrays as the region found them, the
  bias row read as the vector it holds.
-/
import proofs.«138297_j584115552600_1_alg».proof.Proof.Tiles0

set_option maxRecDepth 16384

noncomputable section

open scoped BigOperators

namespace Cert.KernelIdeal.Tiles

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The printed index maps of the second region over its 50 points: the aggregate's block and the output's are row band
    `t`; the bias row and W2 are each one block. -/
theorem index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem point1_lt (t : Fin cfg1.N) : t.val < 50 := lt_of_lt_of_eq t.isLt N_1

theorem emb1_a (t : Fin cfg1.N) (p : Fin 2000) (k : Fin 16) :
    ((cfg1.win 0).blk t).view.emb (ix2 p k) = ix2 (bandRow t.val p.val (point1_lt t) p.isLt) k := by
  obtain ⟨e0, e1, -, -, -, -, -, -⟩ := index1 t
  funext a; apply Fin.ext
  match a with
  | ⟨0, _⟩ => show win1_0.index t (0 : Fin 2) * 2000 + 1 * p.val = t.val * 2000 + p.val; omega
  | ⟨1, _⟩ => show win1_0.index t (1 : Fin 2) * 16 + 1 * k.val = k.val; omega

theorem emb1_b (t : Fin cfg1.N) (k : Fin 16) :
    ((cfg1.win 1).blk t).view.emb (ix2 (0 : Fin 1) k) = ix2 (0 : Fin 1) k := by
  obtain ⟨-, -, e2, e3, -, -, -, -⟩ := index1 t
  funext a; apply Fin.ext
  match a with
  | ⟨0, _⟩ => show win1_1.index t (0 : Fin 2) * 1 + 1 * 0 = 0; omega
  | ⟨1, _⟩ => show win1_1.index t (1 : Fin 2) * 16 + 1 * k.val = k.val; omega

theorem emb1_w (t : Fin cfg1.N) (k : Fin 16) (q : Fin 40) :
    ((cfg1.win 2).blk t).view.emb (ix2 k q) = ix2 k q := by
  obtain ⟨-, -, -, -, e4, e5, -, -⟩ := index1 t
  funext a; apply Fin.ext
  match a with
  | ⟨0, _⟩ => show win1_2.index t (0 : Fin 2) * 16 + 1 * k.val = k.val; omega
  | ⟨1, _⟩ => show win1_2.index t (1 : Fin 2) * 40 + 1 * q.val = q.val; omega

theorem emb1_out (t : Fin cfg1.N) (p : Fin 2000) (q : Fin 40) :
    ((cfg1.win 3).blk t).view.emb (ix2 p q) = ix2 (bandRow t.val p.val (point1_lt t) p.isLt) q := by
  obtain ⟨-, -, -, -, -, -, e6, e7⟩ := index1 t
  funext a; apply Fin.ext
  match a with
  | ⟨0, _⟩ => show win1_3.index t (0 : Fin 2) * 2000 + 1 * p.val = t.val * 2000 + p.val; omega
  | ⟨1, _⟩ => show win1_3.index t (1 : Fin 2) * 40 + 1 * q.val = q.val; omega

/-- What point `t` writes back is band `t` of `Layers.reluDense`, when the bias row holds the vector `b`. -/
theorem flushed1 (c : Dev nD) (b : FVec Ideal ⟨1, ![16]⟩ .f32)
    (hb : ∀ k : Fin 16, V c main_v44 (ix2 (0 : Fin 1) k) = b (ix1 k)) (t : Fin cfg1.N) :
    (dat1 V c).flushed 3 t
      = ((cfg1.win 3).blk t).view.read (Elt Ideal) (Cert.Layers.reluDense (V c main_v43) b (V c main_arg4)) := by
  show (cfg1.win 3).cut (grid1.coords t) ((dat1 V c).after 3 t) = _
  rw [after1_3]
  unfold out1_3
  rw [View.canon_unit_zero offsets_zero]
  simp only [View.ld_unit_zero (S := S2000x16) offsets_zero, View.ld_unit_zero (S := S1x16) offsets_zero,
    View.ld_unit_zero (S := S16x40) offsets_zero]
  funext j
  obtain ⟨p, q, rfl⟩ : ∃ (p : Fin 2000) (q : Fin 40), j = ix2 p q := ⟨j 0, j 1, eq_ix2 j⟩
  refine (Cert.KernelIdeal.Blocks.relu_matmul_block (iblk1 V c 0 t) (iblk1 V c 1 t) (iblk1 V c 2 t) p q).trans ?_
  show _ = Cert.Layers.reluDense (V c main_v43) b (V c main_arg4) (((cfg1.win 3).blk t).view.emb (ix2 p q))
  rw [emb1_out]
  refine Finset.sum_congr rfl fun k _ => ?_
  have ha : iblk1 V c 0 t (ix2 p k) = V c main_v43 (ix2 (bandRow t.val p.val (point1_lt t) p.isLt) k) := by
    show V c main_v43 (((cfg1.win 0).blk t).view.emb (ix2 p k)) = _
    rw [emb1_a]
  have hbk : iblk1 V c 1 t (ix2 (0 : Fin 1) k) = b (ix1 k) := by
    show V c main_v44 (((cfg1.win 1).blk t).view.emb (ix2 (0 : Fin 1) k)) = _
    rw [emb1_b]
    exact hb k
  have hw : iblk1 V c 2 t (ix2 k q) = V c main_arg4 (ix2 k q) := by
    show V c main_arg4 (((cfg1.win 2).blk t).view.emb (ix2 k q)) = _
    rw [emb1_w]
  rw [ha, hbk, hw]

theorem mem_band1 (t : Fin cfg1.N) (i : S100000x40.Idx) :
    i ∈ ((cfg1.win 3).blk t).view.set ↔ ∀ a : Fin 2, win1_3.index t a * S2000x40.size a ≤ (i a).val
      ∧ (i a).val < win1_3.index t a * S2000x40.size a + S2000x40.size a := by
  show i ∈ ((View.whole main_v45).slice (win1_3.rect t)).set ↔ _
  rw [View.set_slice_whole, Rect.mem_set_unit]
  exact Iff.rfl

theorem cover1 (i : S100000x40.Idx) :
    ∃ t : Fin cfg1.N, (cfg1.win 3).flush t = true ∧ i ∈ ((cfg1.win 3).blk t).view.set := by
  have hi0 : (i 0).val < 100000 := (i 0).isLt
  have hi1 : (i 1).val < 40 := (i 1).isLt
  have hN : (i 0).val / 2000 < cfg1.N := by rw [show cfg1.N = 50 from N_1]; omega
  obtain ⟨-, -, -, -, -, -, e6, e7⟩ := index1 ⟨(i 0).val / 2000, hN⟩
  refine ⟨⟨(i 0).val / 2000, hN⟩, flush1_3 _, ?_⟩
  rw [mem_band1]
  intro a
  match a with
  | ⟨0, _⟩ =>
    show win1_3.index ⟨(i 0).val / 2000, hN⟩ (0 : Fin 2) * 2000 ≤ (i 0).val
      ∧ (i 0).val < win1_3.index ⟨(i 0).val / 2000, hN⟩ (0 : Fin 2) * 2000 + 2000
    have e6' : win1_3.index ⟨(i 0).val / 2000, hN⟩ (0 : Fin 2) = (i 0).val / 2000 := e6
    omega
  | ⟨1, _⟩ =>
    show win1_3.index ⟨(i 0).val / 2000, hN⟩ (1 : Fin 2) * 40 ≤ (i 1).val
      ∧ (i 1).val < win1_3.index ⟨(i 0).val / 2000, hN⟩ (1 : Fin 2) * 40 + 40
    omega

/-- After the second region its output array holds the fused bias, rectifier and second feature transform of the arrays
    as the region found them. -/
theorem reluDense_array (c : Dev nD) (b : FVec Ideal ⟨1, ![16]⟩ .f32)
    (hb : ∀ k : Fin 16, V c main_v44 (ix2 (0 : Fin 1) k) = b (ix1 k)) :
    (dat1 V c).arrAt 3 cfg1.N = Cert.Layers.reluDense (V c main_v43) b (V c main_arg4) :=
  (dat1 V c).arrAt_eq_of_cover 3 _ (fun t _ => flushed1 V c b hb t) (cover1)

end Cert.KernelIdeal.Tiles

end
-- ==== Proof.Tiles2.lean ====
/-
  The third region, from blocks to the array.

  Point t of its 50 takes rows 2000·t … 2000·t + 1999 of the second aggregate, adds the bias row (a [1, 40] array, one
  block) and writes the logarithm of the soft-max of each row into the same rows of the output.  A row's result depends
  on that row only, and the bands tile the rows, so after the region the output array is `Layers.logSoftmaxRows` of the
  arrays as the region found them, the bias row read as the vector it holds.
-/
import proofs.«138297_j584115552600_1_alg».proof.Proof.Tiles0

set_option maxRecDepth 16384

noncomputable section

open scoped BigOperators

namespace Cert.KernelIdeal.Tiles

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The printed index maps of the third region over its 50 points. -/
theorem index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem point2_lt (t : Fin cfg2.N) : t.val < 50 := lt_of_lt_of_eq t.isLt N_2

theorem emb2_a (t : Fin cfg2.N) (p : Fin 2000) (d : Fin 40) :
    ((cfg2.win 0).blk t).view.emb (ix2 p d) = ix2 (bandRow t.val p.val (point2_lt t) p.isLt) d := by
  obtain ⟨e0, e1, -, -, -, -⟩ := index2 t
  funext a; apply Fin.ext
  match a with
  | ⟨0, _⟩ => show win2_0.index t (0 : Fin 2) * 2000 + 1 * p.val = t.val * 2000 + p.val; omega
  | ⟨1, _⟩ => show win2_0.index t (1 : Fin 2) * 40 + 1 * d.val = d.val; omega

theorem emb2_b (t : Fin cfg2.N) (d : Fin 40) :
    ((cfg2.win 1).blk t).view.emb (ix2 (0 : Fin 1) d) = ix2 (0 : Fin 1) d := by
  obtain ⟨-, -, e2, e3, -, -⟩ := index2 t
  funext a; apply Fin.ext
  match a with
  | ⟨0, _⟩ => show win2_1.index t (0 : Fin 2) * 1 + 1 * 0 = 0; omega
  | ⟨1, _⟩ => show win2_1.index t (1 : Fin 2) * 40 + 1 * d.val = d.val; omega

theorem emb2_out (t : Fin cfg2.N) (p : Fin 2000) (q : Fin 40) :
    ((cfg2.win 2).blk t).view.emb (ix2 p q) = ix2 (bandRow t.val p.val (point2_lt t) p.isLt) q := by
  obtain ⟨-, -, -, -, e4, e5⟩ := index2 t
  funext a; apply Fin.ext
  match a with
  | ⟨0, _⟩ => show win2_2.index t (0 : Fin 2) * 2000 + 1 * p.val = t.val * 2000 + p.val; omega
  | ⟨1, _⟩ => show win2_2.index t (1 : Fin 2) * 40 + 1 * q.val = q.val; omega

/-- What point `t` writes back is band `t` of `Layers.logSoftmaxRows`, when the bias row holds the vector `b`. -/
theorem flushed2 (c : Dev nD) (b : FVec Ideal ⟨1, ![40]⟩ .f32)
    (hb : ∀ d : Fin 40, V c main_v59 (ix2 (0 : Fin 1) d) = b (ix1 d)) (t : Fin cfg2.N) :
    (dat2 V c).flushed 2 t
      = ((cfg2.win 2).blk t).view.read (Elt Ideal) (Cert.Layers.logSoftmaxRows (V c main_v58) b) := by
  show (cfg2.win 2).cut (grid2.coords t) ((dat2 V c).after 2 t) = _
  rw [after2_2]
  unfold out2_2
  rw [View.canon_unit_zero offsets_zero]
  simp only [View.ld_unit_zero (S := S2000x40) offsets_zero, View.ld_unit_zero (S := S1x40) offsets_zero]
  funext j
  obtain ⟨p, q, rfl⟩ : ∃ (p : Fin 2000) (q : Fin 40), j = ix2 p q := ⟨j 0, j 1, eq_ix2 j⟩
  refine (Cert.KernelIdeal.Blocks.logsoftmax_block (iblk2 V c 0 t) (iblk2 V c 1 t) p q).trans ?_
  show _ = Cert.Layers.logSoftmaxRows (V c main_v58) b (((cfg2.win 2).blk t).view.emb (ix2 p q))
  rw [emb2_out]
  -- the block's row with the bias row added is the array's row with the bias vector added
  have ha : ∀ d : Fin 40, iblk2 V c 0 t (ix2 p d)
      = V c main_v58 (ix2 (bandRow t.val p.val (point2_lt t) p.isLt) d) := fun d => by
    show V c main_v58 (((cfg2.win 0).blk t).view.emb (ix2 p d)) = _
    rw [emb2_a]
  have hbd : ∀ d : Fin 40, iblk2 V c 1 t (ix2 (0 : Fin 1) d) = b (ix1 d) := fun d => by
    show V c main_v59 (((cfg2.win 1).blk t).view.emb (ix2 (0 : Fin 1) d)) = _
    rw [emb2_b]
    exact hb d
  simp only [ha, hbd]
  rfl

theorem mem_band2 (t : Fin cfg2.N) (i : S100000x40.Idx) :
    i ∈ ((cfg2.win 2).blk t).view.set ↔ ∀ a : Fin 2, win2_2.index t a * S2000x40.size a ≤ (i a).val
      ∧ (i a).val < win2_2.index t a * S2000x40.size a + S2000x40.size a := by
  show i ∈ ((View.whole main_v60).slice (win2_2.rect t)).set ↔ _
  rw [View.set_slice_whole, Rect.mem_set_unit]
  exact Iff.rfl

theorem cover2 (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  have hN : (i 0).val / 2000 < cfg2.N := by rw [show cfg2.N = 50 from N_2]; omega
  obtain ⟨-, -, -, -, e4, e5⟩ := index2 ⟨(i 0).val / 2000, hN⟩
  refine ⟨⟨(i 0).val / 2000, hN⟩, flush2_2 _, ?_⟩
  rw [mem_band2]
  intro a
  match a with
  | ⟨0, _⟩ =>
    show win2_2.index ⟨(i 0).val / 2000, hN⟩ (0 : Fin 2) * 2000 ≤ (i 0).val
      ∧ (i 0).val < win2_2.index ⟨(i 0).val / 2000, hN⟩ (0 : Fin 2) * 2000 + 2000
    have e4' : win2_2.index ⟨(i 0).val / 2000, hN⟩ (0 : Fin 2) = (i 0).val / 2000 := e4
    omega
  | ⟨1, _⟩ =>
    show win2_2.index ⟨(i 0).val / 2000, hN⟩ (1 : Fin 2) * 40 ≤ (i 1).val
      ∧ (i 1).val < win2_2.index ⟨(i 0).val / 2000, hN⟩ (1 : Fin 2) * 40 + 40
    omega

/-- After the third region its output array holds the row-wise logarithm of the soft-max of the arrays as the region
    found them. -/
theorem logSoftmax_array (c : Dev nD) (b : FVec Ideal ⟨1, ![40]⟩ .f32)
    (hb : ∀ d : Fin 40, V c main_v59 (ix2 (0 : Fin 1) d) = b (ix1 d)) :
    (dat2 V c).arrAt 2 cfg2.N = Cert.Layers.logSoftmaxRows (V c main_v58) b :=
  (dat2 V c).arrAt_eq_of_cover 2 _ (fun t _ => flushed2 V c b hb t) (cover2)

end Cert.KernelIdeal.Tiles

end
-- ==== Proof.KernelArrays.lean ====
/-
  The kernel's boundary contents, read at the buffers its regions and its stretches of array operations use.

  Before the first region the program builds, from the edge array alone, the source and target lists (edges, then one
  self-loop per node) and the edge weights; no later operation writes those three buffers, so every later boundary
  still holds them.  The first region leaves x · W1 in its output; the next stretch aggregates it over the graph and
  reshapes the bias b1 to a row; the second region leaves the fused bias, rectifier and second feature transform; the
  next stretch aggregates that and reshapes b2; the third region leaves the row-wise logarithm of the soft-max.
  Composed: the result buffer ends at
      logSoftmaxRows (agg40 e (reluDense (agg16 e (dense x W1)) b1 W2)) b2
  of the launch contents of the six arguments, the two aggregations being the functions of `Edges`.
-/
import proofs.«138297_j584115552600_1_alg».proof.Proof.Gen.KernelIdeal.Frame
import proofs.«138297_j584115552600_1_alg».proof.Proof.Tiles0
import proofs.«138297_j584115552600_1_alg».proof.Proof.Tiles1
import proofs.«138297_j584115552600_1_alg».proof.Proof.Tiles2
import proofs.«138297_j584115552600_1_alg».proof.Proof.Edges
import Idealize.ShloMosaic.Lib.StableHlo.Run
import Idealize.ShloMosaic.Lib.ValueLayout

set_option maxRecDepth 16384

noncomputable section

namespace Cert.KernelIdeal.Arrays

open Cert.KernelIdeal Cert.KernelIdeal.Gen
open Idealize.ShloMosaic Idealize.ShloMosaic.TcCoe Idealize.SL.Sem Idealize.ShloMosaic.StableHlo
open Idealize.ShloMosaic.ValueIdx
open Cert.ReferenceIdeal.ReadP (val_main_v3 val_main_v6 val_main_v29 val_main_v51 val_main_v54 val_main_v77
  val_main_v12 val_main_v13 val_main_v14 val_main_cst_2)

variable (m : (ℓ : Loc nD τ sig) → Buf (Elt Ideal) ℓ) (ρ : Dev nD → PrngReg) (c : Dev nD)

/-- The inlined `where` over any inputs: keep `r` where `p` holds, else the broadcast scalar. Its typed references carry
    the buffers' own types, so moving contents to a buffer's type and back changes nothing. -/
theorem where_closed (p : (⟨S100000, .i1⟩ : BufTy).Contents (Elt Ideal)) (r : (⟨S100000, .f32⟩ : BufTy).Contents (Elt Ideal)) (z : (⟨S_, .f32⟩ : BufTy).Contents (Elt Ideal)) :
    ((TRef.of (sig := sig) (T := ⟨S100000, .f32⟩) main_v14).toBuf (Val := Elt Ideal) (select ((TRef.of (sig := sig) (T := ⟨S100000, .i1⟩) main_v12).ofBuf (Val := Elt Ideal) p) ((TRef.of (sig := sig) (T := ⟨S100000, .f32⟩) main_v13).ofBuf (Val := Elt Ideal) r)
      ((TRef.of (sig := sig) (T := ⟨S100000, .f32⟩) main_call0_v1).ofBuf (Val := Elt Ideal) ((TRef.of (sig := sig) (T := ⟨S100000, .f32⟩) main_call0_v1).toBuf (Val := Elt Ideal) (broadcastInDim S100000 ![] bcast_S_S100000 ((TRef.of (sig := sig) (T := ⟨S_, .f32⟩) main_call0_v0).ofBuf (Val := Elt Ideal) ((TRef.of (sig := sig) (T := ⟨S_, .f32⟩) main_call0_v0).toBuf (Val := Elt Ideal) (id ((TRef.of (sig := sig) (T := ⟨S_, .f32⟩) main_cst_2).ofBuf (Val := Elt Ideal) z)))))))))
      = select p r (broadcastInDim S100000 ![] bcast_S_S100000 (id z)) := rfl

/-- The three operations of the `where`, from any contents, at the buffer of its result. -/
theorem where_read (W : Valuation τ sig (Elt Ideal)) :
    StableHlo.after hostOps0_1 W (Proc.devRef .tc main_v14)
      = select (W (Proc.devRef .tc main_v12)) (W (Proc.devRef .tc main_v13))
          (broadcastInDim S100000 ![] bcast_S_S100000 (id (W (Proc.devRef .tc main_cst_2)))) := by
  after_results
  exact where_closed _ _ _

/-! ## The edge lists and weights at every boundary -/

theorem src3 : W3 m ρ c (Proc.devRef .tc main_v3) = val_main_v3 (F := Ideal) (m ((c : Thread nD τ).loc main_arg1)) := by
  show StableHlo.after hostOps0_2 (StableHlo.after hostOps0_1 (StableHlo.after hostOps0 (W0 m ρ c))) (Proc.devRef .tc main_v3) = _
  after_results
  rfl

theorem dst3 : W3 m ρ c (Proc.devRef .tc main_v6) = val_main_v6 (F := Ideal) (m ((c : Thread nD τ).loc main_arg1)) := by
  show StableHlo.after hostOps0_2 (StableHlo.after hostOps0_1 (StableHlo.after hostOps0 (W0 m ρ c))) (Proc.devRef .tc main_v6) = _
  after_results
  rfl

/-- After the first stretch: the positive-degree mask, -/
theorem pos1 : W1 m ρ c (Proc.devRef .tc main_v12) = val_main_v12 (F := Ideal) (m ((c : Thread nD τ).loc main_arg1)) := by
  show StableHlo.after hostOps0 (W0 m ρ c) (Proc.devRef .tc main_v12) = _
  after_results
  rfl
/-- the reciprocal square root of the degree, -/
theorem rsq1 : W1 m ρ c (Proc.devRef .tc main_v13) = val_main_v13 (F := Ideal) (m ((c : Thread nD τ).loc main_arg1)) := by
  show StableHlo.after hostOps0 (W0 m ρ c) (Proc.devRef .tc main_v13) = _
  after_results
  rfl
/-- and the scalar zero. -/
theorem zero1 : W1 m ρ c (Proc.devRef .tc main_cst_2) = val_main_cst_2 (F := Ideal) := by
  show StableHlo.after hostOps0 (W0 m ρ c) (Proc.devRef .tc main_cst_2) = _
  after_results
  rfl

/-- After the `where`: the reciprocal square root of the degree where the degree is positive, zero elsewhere; -/
theorem dinv2 : W2 m ρ c (Proc.devRef .tc main_v14) = val_main_v14 (F := Ideal) (m ((c : Thread nD τ).loc main_arg1)) := by
  show StableHlo.after hostOps0_1 (W1 m ρ c) (Proc.devRef .tc main_v14) = _
  rw [where_read, pos1 m ρ c, rsq1 m ρ c, zero1 m ρ c]
  rfl
/-- the source list -/
theorem src2 : W2 m ρ c (Proc.devRef .tc main_v3) = val_main_v3 (F := Ideal) (m ((c : Thread nD τ).loc main_arg1)) := by
  show StableHlo.after hostOps0_1 (StableHlo.after hostOps0 (W0 m ρ c)) (Proc.devRef .tc main_v3) = _
  after_results
  rfl
/-- and the target list as built. -/
theorem dst2 : W2 m ρ c (Proc.devRef .tc main_v6) = val_main_v6 (F := Ideal) (m ((c : Thread nD τ).loc main_arg1)) := by
  show StableHlo.after hostOps0_1 (StableHlo.after hostOps0 (W0 m ρ c)) (Proc.devRef .tc main_v6) = _
  after_results
  rfl

set_option maxHeartbeats 8000000 in
/-- The third stretch leaves the edge weights. -/
theorem wgt3 : W3 m ρ c (Proc.devRef .tc main_v29) = val_main_v29 (F := Ideal) (m ((c : Thread nD τ).loc main_arg1)) := by
  show StableHlo.after hostOps0_2 (W2 m ρ c) (Proc.devRef .tc main_v29) = _
  have h3 := src2 m ρ c
  have h6 := dst2 m ρ c
  have h14 := dinv2 m ρ c
  generalize W2 m ρ c = W at h3 h6 h14 ⊢
  after_results
  rw [h3, h6, h14]
  rfl

theorem src4 : W4 m ρ c (Proc.devRef .tc main_v3) = val_main_v3 (F := Ideal) (m ((c : Thread nD τ).loc main_arg1)) :=
  (W4_of_ne m ρ c main_v3 (by decide)).trans (src3 m ρ c)
theorem dst4 : W4 m ρ c (Proc.devRef .tc main_v6) = val_main_v6 (F := Ideal) (m ((c : Thread nD τ).loc main_arg1)) :=
  (W4_of_ne m ρ c main_v6 (by decide)).trans (dst3 m ρ c)
theorem wgt4 : W4 m ρ c (Proc.devRef .tc main_v29) = val_main_v29 (F := Ideal) (m ((c : Thread nD τ).loc main_arg1)) :=
  (W4_of_ne m ρ c main_v29 (by decide)).trans (wgt3 m ρ c)

theorem src6 : W6 m ρ c (Proc.devRef .tc main_v3) = val_main_v51 (F := Ideal) (m ((c : Thread nD τ).loc main_arg1)) := by
  refine (W6_of_ne m ρ c main_v3 (by decide)).trans ?_
  show StableHlo.after hostOps1 (W4 m ρ c) (Proc.devRef .tc main_v3) = _
  after_results
  exact (src4 m ρ c).trans (Cert.Edges.src_copy _).symm
theorem dst6 : W6 m ρ c (Proc.devRef .tc main_v6) = val_main_v54 (F := Ideal) (m ((c : Thread nD τ).loc main_arg1)) := by
  refine (W6_of_ne m ρ c main_v6 (by decide)).trans ?_
  show StableHlo.after hostOps1 (W4 m ρ c) (Proc.devRef .tc main_v6) = _
  after_results
  exact (dst4 m ρ c).trans (Cert.Edges.dst_copy _).symm
theorem wgt6 : W6 m ρ c (Proc.devRef .tc main_v29) = val_main_v77 (F := Ideal) (m ((c : Thread nD τ).loc main_arg1)) := by
  refine (W6_of_ne m ρ c main_v29 (by decide)).trans ?_
  show StableHlo.after hostOps1 (W4 m ρ c) (Proc.devRef .tc main_v29) = _
  after_results
  exact (wgt4 m ρ c).trans (Cert.Edges.weight_copy _).symm

/-! ## The arguments at the boundaries where a region or a reshape reads them -/

theorem x3 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results
theorem w1_3 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results
theorem b1_4 : W4 m ρ c (Proc.devRef .tc main_arg3) = m ((c : Thread nD τ).loc main_arg3) := by
  refine (W4_of_ne m ρ c main_arg3 (by decide)).trans ?_
  show StableHlo.after hostOps0_2 (StableHlo.after hostOps0_1 (StableHlo.after hostOps0 (W0 m ρ c))) (Proc.devRef .tc main_arg3) = _
  after_results
theorem w2_5 : W5 m ρ c (Proc.devRef .tc main_arg4) = m ((c : Thread nD τ).loc main_arg4) := by
  show StableHlo.after hostOps1 (W4 m ρ c) (Proc.devRef .tc main_arg4) = _
  after_results
  refine (W4_of_ne m ρ c main_arg4 (by decide)).trans ?_
  show StableHlo.after hostOps0_2 (StableHlo.after hostOps0_1 (StableHlo.after hostOps0 (W0 m ρ c))) (Proc.devRef .tc main_arg4) = _
  after_results
theorem b2_6 : W6 m ρ c (Proc.devRef .tc main_arg5) = m ((c : Thread nD τ).loc main_arg5) := by
  refine (W6_of_ne m ρ c main_arg5 (by decide)).trans ?_
  show StableHlo.after hostOps1 (W4 m ρ c) (Proc.devRef .tc main_arg5) = _
  after_results
  refine (W4_of_ne m ρ c main_arg5 (by decide)).trans ?_
  show StableHlo.after hostOps0_2 (StableHlo.after hostOps0_1 (StableHlo.after hostOps0 (W0 m ρ c))) (Proc.devRef .tc main_arg5) = _
  after_results

/-! ## The three regions and the two aggregations -/

/-- The first region leaves x · W1. -/
theorem dense_out : W4 m ρ c (Proc.devRef .tc main_v30)
    = Cert.Layers.dense (m ((c : Thread nD τ).loc main_arg0)) (m ((c : Thread nD τ).loc main_arg2)) := by
  refine (W4_arr m ρ c 2).trans ((Cert.KernelIdeal.Tiles.dense_array (V3 m ρ) c).trans ?_)
  show Cert.Layers.dense (W3 m ρ c (Proc.devRef .tc main_arg0)) (W3 m ρ c (Proc.devRef .tc main_arg2)) = _
  rw [x3, w1_3]

set_option maxHeartbeats 4000000 in
/-- The stretch after it aggregates the first region's output over the graph. -/
theorem agg1 : W5 m ρ c (Proc.devRef .tc main_v43)
    = Cert.Edges.agg16 (m ((c : Thread nD τ).loc main_arg1)) (W4 m ρ c (Proc.devRef .tc main_v30)) := by
  show StableHlo.after hostOps1 (W4 m ρ c) (Proc.devRef .tc main_v43) = _
  after_results_simp
  rw [src4 m ρ c, dst4 m ρ c, wgt4 m ρ c]
  rfl

/-- The bias row the second region reads holds b1. -/
theorem b1_row (k : Fin 16) :
    W5 m ρ c (Proc.devRef .tc main_v44) (ix2 (0 : Fin 1) k) = m ((c : Thread nD τ).loc main_arg3) (ix1 k) := by
  have e : W5 m ρ c (Proc.devRef .tc main_v44)
      = shapeCast S1x16 (m ((c : Thread nD τ).loc main_arg3)) shapeCasts_S16_S1x16 := by
    show StableHlo.after hostOps1 (W4 m ρ c) (Proc.devRef .tc main_v44) = _
    after_results
    rw [b1_4 m ρ c]
    rfl
  rw [e]
  exact shapeCast_a_1a_apply _ shapeCasts_S16_S1x16 0 k

/-- The second region leaves the fused bias, rectifier and second feature transform of the first aggregate. -/
theorem reluDense_out : W6 m ρ c (Proc.devRef .tc main_v45)
    = Cert.Layers.reluDense (W5 m ρ c (Proc.devRef .tc main_v43)) (m ((c : Thread nD τ).loc main_arg3))
        (m ((c : Thread nD τ).loc main_arg4)) := by
  refine (W6_arr m ρ c 3).trans ((Cert.KernelIdeal.Tiles.reluDense_array (V5 m ρ) c
    (m ((c : Thread nD τ).loc main_arg3)) (b1_row m ρ c)).trans ?_)
  show Cert.Layers.reluDense (W5 m ρ c (Proc.devRef .tc main_v43)) _ (W5 m ρ c (Proc.devRef .tc main_arg4)) = _
  rw [w2_5]

set_option maxHeartbeats 4000000 in
/-- The stretch after it aggregates the second region's output over the graph. -/
theorem agg2 : W7 m ρ c (Proc.devRef .tc main_v58)
    = Cert.Edges.agg40 (m ((c : Thread nD τ).loc main_arg1)) (W6 m ρ c (Proc.devRef .tc main_v45)) := by
  show StableHlo.after hostOps2 (W6 m ρ c) (Proc.devRef .tc main_v58) = _
  after_results_simp
  rw [src6 m ρ c, dst6 m ρ c, wgt6 m ρ c]
  rfl

/-- The bias row the third region reads holds b2. -/
theorem b2_row (d : Fin 40) :
    W7 m ρ c (Proc.devRef .tc main_v59) (ix2 (0 : Fin 1) d) = m ((c : Thread nD τ).loc main_arg5) (ix1 d) := by
  have e : W7 m ρ c (Proc.devRef .tc main_v59)
      = shapeCast S1x40 (m ((c : Thread nD τ).loc main_arg5)) shapeCasts_S40_S1x40 := by
    show StableHlo.after hostOps2 (W6 m ρ c) (Proc.devRef .tc main_v59) = _
    after_results
    rw [b2_6 m ρ c]
    rfl
  rw [e]
  exact shapeCast_a_1a_apply _ shapeCasts_S40_S1x40 0 d

/-- The third region leaves the row-wise logarithm of the soft-max of the second aggregate plus b2. -/
theorem logSoftmax_out : W8 m ρ c (Proc.devRef .tc main_v60)
    = Cert.Layers.logSoftmaxRows (W7 m ρ c (Proc.devRef .tc main_v58)) (m ((c : Thread nD τ).loc main_arg5)) :=
  (W8_arr m ρ c 2).trans (Cert.KernelIdeal.Tiles.logSoftmax_array (V7 m ρ) c
    (m ((c : Thread nD τ).loc main_arg5)) (b2_row m ρ c))

/-- The result buffer at the last boundary, as one function of the launch contents of the arguments. -/
theorem result : W8 m ρ c (Proc.devRef .tc main_v60)
    = Cert.Layers.logSoftmaxRows
        (Cert.Edges.agg40 (m ((c : Thread nD τ).loc main_arg1))
          (Cert.Layers.reluDense
            (Cert.Edges.agg16 (m ((c : Thread nD τ).loc main_arg1))
              (Cert.Layers.dense (m ((c : Thread nD τ).loc main_arg0)) (m ((c : Thread nD τ).loc main_arg2))))
            (m ((c : Thread nD τ).loc main_arg3)) (m ((c : Thread nD τ).loc main_arg4))))
        (m ((c : Thread nD τ).loc main_arg5)) := by
  rw [logSoftmax_out, agg2, reluDense_out, agg1, dense_out]

end Cert.KernelIdeal.Arrays

end
-- ==== Proof.lean ====
/-
  A two-layer graph convolution with a final logarithm of the soft-max: the kernel program against its reference, on the
  extended reals.

  Both programs compute, for node features x, an edge array e, weights W1, W2 and biases b1, b2,

      logSoftmaxRows (agg40 e (reluDense (agg16 e (dense x W1)) b1 W2)) b2 ,

  where `dense`, `reluDense` and `logSoftmaxRows` (Proof/Layers.lean) are the dense stages entry by entry and `agg16`,
  `agg40` (Proof/Edges.lean) are the aggregation over the graph's edges — the same sequence of array operations in both
  programs, never opened.  The kernel computes each dense stage in a region of 50 row bands of 2000 rows
  (Proof/BlockBodies.lean: one band; Proof/Tiles0–2.lean: the bands tile the rows; Proof/KernelArrays.lean: the
  boundaries of its run composed); the reference computes them by whole-array operations (Proof/RefStretches.lean: its run read back;
  Proof/RefLayers.lean: its stages against the three functions).  A
  product onto a zero accumulator against a contraction, a lane reduction against an array reduction, a bias kept as a
  row against a bias repeated along the rows, and one more maximum with −∞ after a maximum that starts at −∞, are all the
  differences; none needs an input to be finite, and the precondition is not used.

  The ideal pass rewrote nothing in the kernel, so that claim is `True`.
-/
import proofs.«138297_j584115552600_1_alg».proof.Defs
import proofs.«138297_j584115552600_1_alg».proof.Proof.Gen.Kernel
import proofs.«138297_j584115552600_1_alg».proof.Proof.Gen.Kernel.Skeleton
import proofs.«138297_j584115552600_1_alg».proof.Proof.Gen.Kernel.Launch
import proofs.«138297_j584115552600_1_alg».proof.Proof.Gen.Kernel.Points
import proofs.«138297_j584115552600_1_alg».proof.Proof.Gen.Kernel.Frame
import proofs.«138297_j584115552600_1_alg».proof.Proof.Gen.KernelIdeal
import proofs.«138297_j584115552600_1_alg».proof.Proof.Gen.KernelIdeal.Skeleton
import proofs.«138297_j584115552600_1_alg».proof.Proof.Gen.KernelIdeal.Launch
import proofs.«138297_j584115552600_1_alg».proof.Proof.Gen.KernelIdeal.Points
import proofs.«138297_j584115552600_1_alg».proof.Proof.Gen.KernelIdeal.Frame
import proofs.«138297_j584115552600_1_alg».proof.Proof.Gen.ReferenceIdeal
import proofs.«138297_j584115552600_1_alg».proof.Proof.Gen.Pre_finite_inputs
import proofs.«138297_j584115552600_1_alg».proof.Proof.RefRead
import proofs.«138297_j584115552600_1_alg».proof.Proof.RefStretches
import proofs.«138297_j584115552600_1_alg».proof.Proof.RefLayers
import proofs.«138297_j584115552600_1_alg».proof.Proof.Edges
import proofs.«138297_j584115552600_1_alg».proof.Proof.KernelRun
import proofs.«138297_j584115552600_1_alg».proof.Proof.KernelArrays
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Stretches.run m ρ)

theorem preserves : Cert.preserves_Kernel_KernelIdeal := trivial

/-- From memories agreeing on the six arguments both programs end with the result array at the same function of them. -/
theorem algebraic : Cert.algebraic_KernelIdeal_ReferenceIdeal := by
  intro m ρ m' ρ' _ hagree
  refine ⟨fun c => Cert.KernelIdeal.Gen.W8 m ρ c (Proc.devRef .tc Cert.KernelIdeal.main_v60),
    Cert.KernelIdeal.Run.run (F := Ideal) m ρ, ?_⟩
  refine (θ_run Cert.ReferenceIdeal.defs _ _).mono (fun _ h c => ⟨(h c).1.trans ?_, (h c).2⟩)
    (Cert.ReferenceIdeal.Stretches.run m' ρ')
  obtain ⟨h0, h1, h2, h3, h4, h5⟩ := hagree c
  rw [Cert.RefLayers.logSoftmax_eq, Cert.Edges.layer2,
    Cert.RefLayers.reluDense_eq, Cert.Edges.layer1, Cert.RefLayers.dense_eq, h0, h1, h2, h3, h4, h5]
  exact (Cert.KernelIdeal.Arrays.result m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
